-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x1024x512 .f32) (main_arg1 : FVec F S512x1024 .f32) (main_arg2 : FVec F S1024 .f32) (main_arg3 : FVec F S1024x512 .f32) (main_arg4 : FVec F S512 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_v13 main_v16
-- ==== Kernel.lean ====
abbrev S64x1024x512 : Shape := ⟨3, ![64, 1024, 512]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S1x1024 : Shape := ⟨2, ![1, 1024]⟩
abbrev S1x512 : Shape := ⟨2, ![1, 512]⟩
abbrev S1x1024x512 : Shape := ⟨3, ![1, 1024, 512]⟩
abbrev S1024x1024 : Shape := ⟨2, ![1024, 1024]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 8
  | .vmem => 10
  | .smem => 0
  | _ => 0

abbrev bufTy : (tb : Table) → Fin (tcTables nBuf tb) → BufTy
  | .hbm, ⟨0, _⟩ => ⟨S64x1024x512, .f32⟩
  | .hbm, ⟨1, _⟩ => ⟨S512x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S1x1024, .f32⟩
  | .hbm, ⟨6, _⟩ => ⟨S1x512, .f32⟩
  | .hbm, ⟨7, _⟩ => ⟨S64x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x1024, .f32⟩
  | .local _ .vmem, ⟨3, _⟩ => ⟨S1x1024, .f32⟩
  | .local _ .vmem, ⟨4, _⟩ => ⟨S1024x512, .f32⟩
  | .local _ .vmem, ⟨5, _⟩ => ⟨S1x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x1024, .bf16⟩
  | .local _ .vmem, ⟨9, _⟩ => ⟨S1024x1024, .bf16⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c2_i32 : BitVec 32 := 2#32
  let v24 : BitVec 32 := Scalar.addi c0_i32 c2_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v25 : BitVec 32 := Scalar.muli arg9 c512_i32
  v25
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v25 : BitVec 32 := Scalar.muli arg9 c512_i32
  let v26 : BitVec 32 := v25
  let v27 : Index := Scalar.indexCast v26
  let c0_16 : Index := 0#32
  ![v27.toNat, 0]
def k0_off2 (k0_t1 : Fin k0_t1_loop.trips) : Fin 3 → Nat :=
  let c0_29 : Index := 0#32
  let c0_i32 : BitVec 32 := 0#32
  let c1_i32 : BitVec 32 := 1#32
  let arg9 : BitVec 32 := Scf.iv c0_i32 c1_i32 k0_t1
  let c512_i32 : BitVec 32 := 512#32
  let v25 : BitVec 32 := Scalar.muli arg9 c512_i32
  let v26 : BitVec 32 := v25
  let v54 : Index := Scalar.indexCast v26
  let c0_30 : Index := 0#32
  ![0, v54.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S1024x1024_p1_0_S1024x1024 : S1024x1024.Transposes [1, 0] S1024x1024
  reduces_S512x1024_S512 : S512x1024.Reduces [1] S512
  shapeCasts_S512_S512x1 : S512.ShapeCasts S512x1
  broadcasts_S512x1_S512x1024 : S512x1.Broadcasts S512x1024
  broadcasts_S1x512_S512x512 : S1x512.Broadcasts S512x512
  h_S1x512x512 : 0 < S1x512x512.numel
  shapeCasts_S1x512x512_S512x512 : S1x512x512.ShapeCasts S512x512
  shapeCasts_S512x512_S1x512x512 : S512x512.ShapeCasts S1x512x512
  dot_S1024x512_S512x1024_S1024x1024_1_0_0_1_n_n_wf : DotDims.WF S1024x512 S512x1024 S1024x1024 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x1024.size a ≤ S1024x1024.size a
  k0_off2_inb : ∀ k0_t1 : Fin k0_t1_loop.trips, ∀ a, (k0_off2 k0_t1) a + S1x512x512.size a ≤ S1x1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x1024x512.size a
  hwx0_0 : ∀ i : grid0.Coords, EltTy.bits .f32 = 32 ∨ (Rect.block (s := S64x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S64x1024x512.size a
  hwx0_5 : ∀ i : grid0.Coords, EltTy.bits .f32 = 32 ∨ (Rect.block (s := S64x1024x512) S1x1024x512.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S_ : Shape := ⟨0, ![]⟩
abbrev S64x1024x1024 : Shape := ⟨3, ![64, 1024, 1024]⟩
abbrev S1x1x1024 : Shape := ⟨3, ![1, 1, 1024]⟩
abbrev S64x1024 : Shape := ⟨2, ![64, 1024]⟩
abbrev S64x1024x1 : Shape := ⟨3, ![64, 1024, 1]⟩
abbrev S1x1x512 : Shape := ⟨3, ![1, 1, 512]⟩

abbrev nBuf : Space → Nat
  | .hbm => 39
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S512x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S_, .f32⟩
  | .hbm, ⟨6, _⟩ => ⟨S_, .f32⟩
  | .hbm, ⟨7, _⟩ => ⟨S64x1024x1024, .f32⟩
  | .hbm, ⟨8, _⟩ => ⟨S1x1x1024, .f32⟩
  | .hbm, ⟨9, _⟩ => ⟨S64x1024x1024, .f32⟩
  | .hbm, ⟨10, _⟩ => ⟨S64x1024x1024, .f32⟩
  | .hbm, ⟨11, _⟩ => ⟨S_, .f32⟩
  | .hbm, ⟨12, _⟩ => ⟨S64x1024x1024, .f32⟩
  | .hbm, ⟨13, _⟩ => ⟨S64x1024x1024, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S_, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S64x1024x1, .f32⟩
  | .hbm, ⟨23, _⟩ => ⟨S64x1024x1024, .f32⟩
  | .hbm, ⟨24, _⟩ => ⟨S64x1024x1024, .f32⟩
  | .hbm, ⟨25, _⟩ => ⟨S64x1024x1024, .f32⟩
  | .hbm, ⟨26, _⟩ => ⟨S_, .f32⟩
  | .hbm, ⟨27, _⟩ => ⟨S64x1024, .f32⟩
  | .hbm, ⟨28, _⟩ => ⟨S64x1024x1, .f32⟩
  | .hbm, ⟨29, _⟩ => ⟨S64x1024x1024, .f32⟩
  | .hbm, ⟨30, _⟩ => ⟨S64x1024x1024, .f32⟩
  | .hbm, ⟨31, _⟩ => ⟨S64x1024x1024, .f32⟩
  | .hbm, ⟨32, _⟩ => ⟨S64x1024x512, .f32⟩
  | .hbm, ⟨33, _⟩ => ⟨S1x1x512, .f32⟩
  | .hbm, ⟨34, _⟩ => ⟨S64x1024x512, .f32⟩
  | .hbm, ⟨35, _⟩ => ⟨S64x1024x512, .f32⟩
  | .hbm, ⟨36, _⟩ => ⟨S_, .f32⟩
  | .hbm, ⟨37, _⟩ => ⟨S64x1024x512, .f32⟩
  | .hbm, ⟨38, _⟩ => ⟨S64x1024x512, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S64x1024x1024_0_1_2 : S1x1x1024.BroadcastsInDim S64x1024x1024 (![0, 1, 2] : Fin 3 → Fin S64x1024x1024.rank)
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)
  bcast_S_S64x1024x512 : S_.BroadcastsInDim S64x1024x512 (![] : Fin 0 → Fin S64x1024x512.rank)
  dot_S64x1024x512_S512x1024_S64x1024x1024_2_0_01_1_n_n_wf : DotDims.WF S64x1024x512 S512x1024 S64x1024x1024 [2] [0] [0, 1] [1] [] []
  dot_S64x1024x1024_S64x1024x1024_S64x1024x1024_2_2_1_1_0_0_wf : DotDims.WF S64x1024x1024 S64x1024x1024 S64x1024x1024 [2] [2] [1] [1] [0] [0]
  dot_S64x1024x1024_S64x1024x1024_S64x1024x1024_2_1_1_2_0_0_wf : DotDims.WF S64x1024x1024 S64x1024x1024 S64x1024x1024 [2] [1] [1] [2] [0] [0]
  dot_S64x1024x1024_S1024x512_S64x1024x512_2_0_01_1_n_n_wf : DotDims.WF S64x1024x1024 S1024x512 S64x1024x512 [2] [0] [0, 1] [1] [] []

variable [Facts₀]

def dot_S64x1024x512_S512x1024_S64x1024x1024_2_0_01_1_n_n : DotDims S64x1024x512 S512x1024 S64x1024x1024 where
  lhsContracting := [2]
  rhsContracting := [0]
  lhsNonContracting := [0, 1]
  rhsNonContracting := [1]
  lhsBatch := []
  rhsBatch := []
  wf := dot_S64x1024x512_S512x1024_S64x1024x1024_2_0_01_1_n_n_wf
def dot_S64x1024x1024_S64x1024x1024_S64x1024x1024_2_2_1_1_0_0 : DotDims S64x1024x1024 S64x1024x1024 S64x1024x1024 where
  lhsContracting := [2]
  rhsContracting := [2]
  lhsNonContracting := [1]
  rhsNonContracting := [1]
  lhsBatch := [0]
  rhsBatch := [0]
  wf := dot_S64x1024x1024_S64x1024x1024_S64x1024x1024_2_2_1_1_0_0_wf
def dot_S64x1024x1024_S64x1024x1024_S64x1024x1024_2_1_1_2_0_0 : DotDims S64x1024x1024 S64x1024x1024 S64x1024x1024 where
  lhsContracting := [2]
  rhsContracting := [1]
  lhsNonContracting := [1]
  rhsNonContracting := [2]
  lhsBatch := [0]
  rhsBatch := [0]
  wf := dot_S64x1024x1024_S64x1024x1024_S64x1024x1024_2_1_1_2_0_0_wf
def dot_S64x1024x1024_S1024x512_S64x1024x512_2_0_01_1_n_n : DotDims S64x1024x1024 S1024x512 S64x1024x512 where
  lhsContracting := [2]
  rhsContracting := [0]
  lhsNonContracting := [0, 1]
  rhsNonContracting := [1]
  lhsBatch := []
  rhsBatch := []
  wf := dot_S64x1024x1024_S1024x512_S64x1024x512_2_0_01_1_n_n_wf

class Facts : Prop extends Facts₀ where

variable [Facts]
-- ==== Proof.Spec.lean ====
/-
  The mathematics both programs compute, over the extended reals.

  A layer of single-head attention in which one projection serves as query and value and its positive part as key:
  for a batch entry `b` and a row `n`,
    proj b n e   = (∑ d, x b n d · W1 d e) + bias1 e
    key  b n e   = max (proj b n e) 0
    logit n m    = (∑ e, proj b n e · key b m e) · 2⁻⁵
    weight n m   = exp (logit n m − max_m' logit n m') / ∑ m'', exp (logit n m'' − max_m' logit n m')
    feature n e  = ∑ m, weight n m · proj b m e
    out b n d    = max ((∑ e, feature n e · W2 e d) + bias2 d) 0.
  The row-level part (`rowOut`) is stated for ONE query row against arbitrary key and value matrices, so that a
  program computing the layer row block by row block and one computing it for all rows at once are both instances of it.
  Every running maximum starts from −∞ and is then joined with −∞ once more, as both programs do; the sums are
  finite sums in the commutative monoid of the extended reals, so no order of summation is recorded.
-/
import Idealize.ShloMosaic.PureOps.Ideal
import Idealize.ShloMosaic.Lib.ValueIdx

noncomputable section

namespace Cert.Attn

open Idealize.ShloMosaic Idealize.ShloMosaic.ValueIdx
open scoped BigOperators

/-- The factor the logits are multiplied by: the binary fraction 2⁻⁵ = 1/√1024. -/
abbrev cscale : EReal := Ideal.ofBits .f32 0x3D000000#32
/-- The value every running maximum starts from: −∞. -/
abbrev ninf : EReal := Ideal.ofBits .f32 0xFF800000#32

section Row
variable (q : Fin 1024 → EReal) (K V : Fin 1024 → Fin 1024 → EReal) (w2 : Fin 1024 → Fin 512 → EReal) (bb : Fin 512 → EReal)

/-- The scaled inner product of the query row with key row `m`. -/
def logit (m : Fin 1024) : EReal := (∑ e : Fin 1024, q e * K m e) * cscale
/-- The largest logit of the row (joined with −∞). -/
def rowMax : EReal := max ninf ((Finset.univ : Finset (Fin 1024)).fold max ninf (fun m => logit q K m))
/-- The exponential of a logit shifted by the row's maximum. -/
def expo (m : Fin 1024) : EReal := Ideal.exp (logit q K m - rowMax q K)
/-- The row's normalizer. -/
def denom : EReal := ∑ m : Fin 1024, expo q K m
/-- The softmax weight the query row gives key row `m`. -/
def weight (m : Fin 1024) : EReal := Ideal.div (expo q K m) (denom q K)
/-- The weighted combination of the value rows. -/
def feature (e : Fin 1024) : EReal := ∑ m : Fin 1024, weight q K m * V m e
/-- The output row: the second linear map, its bias, and the positive part. -/
def rowOut (d : Fin 512) : EReal := max ((∑ e : Fin 1024, feature q K V e * w2 e d) + bb d) 0
end Row

section Layer
variable (x : (⟨3, ![64, 1024, 512]⟩ : Shape).Idx → EReal) (W1 : (⟨2, ![512, 1024]⟩ : Shape).Idx → EReal)
  (b1 : (⟨1, ![1024]⟩ : Shape).Idx → EReal) (W2 : (⟨2, ![1024, 512]⟩ : Shape).Idx → EReal) (b2 : (⟨1, ![512]⟩ : Shape).Idx → EReal)

/-- The first linear map with its bias: query and value at once. -/
def proj (b : Fin 64) (n : Fin 1024) (e : Fin 1024) : EReal := (∑ d : Fin 512, x (ix3 b n d) * W1 (ix2 d e)) + b1 (ix1 e)
/-- Its positive part: the key. -/
def key (b : Fin 64) (n : Fin 1024) (e : Fin 1024) : EReal := max (proj x W1 b1 b n e) 0
/-- The layer's output at batch entry `b`, row `n`, column `d`. -/
def out (b : Fin 64) (n : Fin 1024) (d : Fin 512) : EReal :=
  rowOut (proj x W1 b1 b n) (key x W1 b1 b) (proj x W1 b1 b) (fun e d => W2 (ix2 e d)) (fun d => b2 (ix1 d)) d
/-- The whole output array. -/
def G : (⟨3, ![64, 1024, 512]⟩ : Shape).Idx → EReal := fun i => out x W1 b1 W2 b2 (i 0) (i 1) (i 2)

theorem G_apply (b : Fin 64) (n : Fin 1024) (d : Fin 512) : G x W1 b1 W2 b2 (ix3 b n d) = out x W1 b1 W2 b2 b n d := rfl
end Layer

end Cert.Attn

end
-- ==== Proof.BlockFn.lean ====
/-
  One batch entry's output block as a function of the five blocks the kernel body loads: the batch entry's rows
  `x0` ([1, 1024, 512]), the first weight matrix `x1`, the first bias as a row `x2` ([1, 1024]), the second weight
  matrix `x3` and the second bias as a row `x4` ([1, 512]). Row `n` of the block is the attention row (`rowOut`) of
  projection row `n` against the keys and values of all 1024 rows of the same batch entry.
-/
import proofs.«100685_j26448408609009_2_alg».proof.Proof.Spec

noncomputable section

namespace Cert.Attn.Block

open Idealize.ShloMosaic Idealize.ShloMosaic.ValueIdx
open scoped BigOperators

variable (x0 : (⟨3, ![1, 1024, 512]⟩ : Shape).Idx → EReal) (x1 : (⟨2, ![512, 1024]⟩ : Shape).Idx → EReal)
  (x2 : (⟨2, ![1, 1024]⟩ : Shape).Idx → EReal) (x3 : (⟨2, ![1024, 512]⟩ : Shape).Idx → EReal) (x4 : (⟨2, ![1, 512]⟩ : Shape).Idx → EReal)

/-- The projection of row `n` of the batch entry's block. -/
def bproj (n e : Fin 1024) : EReal := (∑ d : Fin 512, x0 (ix3 0 n d) * x1 (ix2 d e)) + x2 (ix2 0 e)

/-- The output block: row `n` is the attention row of projection row `n` against all the rows' keys and values. -/
def blockOut : (⟨3, ![1, 1024, 512]⟩ : Shape).Idx → EReal := fun y =>
  rowOut (bproj x0 x1 x2 (y 1)) (fun m e => max (bproj x0 x1 x2 m e) 0) (bproj x0 x1 x2)
    (fun e d => x3 (ix2 e d)) (fun d => x4 (ix2 0 d)) (y 2)

end Cert.Attn.Block

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibRowMax.lean ====
/-
  The maximum along the rows of a matrix, read at a row, over the extended reals.

  A kernel takes the maximum of an `[a, b]` block over its second axis by a fold of `max` from the accumulator's
  value; the host takes it by a one-operand reduction whose body is `max`, from its initial value. Both fold a
  commutative and associative operation over the `b` entries of row `p`, so read at `p` both are the fold of `max`
  over `k ↦ x (p, k)`, whatever order the definitions walk the entries in. Stated for any extents `a`, `b`.
-/
import Idealize.ShloMosaic.Lib.ValueIdx
import Idealize.ShloMosaic.PureOps.Ideal.Laws

noncomputable section

namespace Cert.LibRowMax

open Idealize.ShloMosaic Idealize.ShloMosaic.ValueIdx

/-- The source index a reduction over the second axis reads for result row `p` and coordinate `k` is `(p, k)`. -/
theorem lift_row {a b : ℕ} (h : Shape.Reduces ⟨2, ![a, b]⟩ [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- A kernel's maximum of an `[a, b]` block over its second axis is, at row `p`, the fold of `max` from the
    accumulator's value over the `b` entries of that row. -/
theorem multiReduction_maximumf_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_row h p k)))

/-- The host's reduction with body `max` of an `[a, b]` array over its second axis is, at row `p`, the fold of `max`
    from the initial value over the `b` entries of that row. -/
theorem hostReduce_maximumf_row {a b : ℕ} {φ : FTy} {u : Shape} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩) (hu : 0 < u.numel)
    (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg (fun f => (Finset.univ : Finset (Fin b)).fold max (init (Shape.Idx.first hu)) f)
      (funext fun k => congrArg x (lift_row h p k)))

end Cert.LibRowMax

end
-- ==== Proof.Payload.lean ====
/-
  The arithmetic of the row-blocked program, read at an index, over the extended reals.

  The program first forms the projection x·W1 + bias1 of a batch entry and keeps it twice: as it is, and with its
  positive part taken (the key). It then treats the 1024 query rows in two tiles of 512. For a tile it forms the
  logits (the tile's projection rows against the transposed keys, times 2⁻⁵), each row's maximum joined with −∞, the
  exponentials of the shifted logits, their row sums, the quotients, the quotients applied to the value rows, the
  second linear map with its bias row repeated over the tile, and the positive part.

  Every step is elementwise, a row-by-column product into a zero accumulator, a fold along a row, or a re-laying
  that moves no value; a change of float format is the identity on extended reals. Read at explicit coordinates the
  four stored arrays are therefore: the projection's defining sum; that same value; its maximum with 0; and the
  specification's row-level function at the tile's row, with the tile's projection row as the query.
-/
import proofs.«100685_j26448408609009_2_alg».proof.Proof.Gen.KernelIdeal.Skeleton
import proofs.«100685_j26448408609009_2_alg».proof.Proof.Spec
import proofs.«100685_j26448408609009_2_alg».proof.Proof.LibPlainMatmul
import proofs.«100685_j26448408609009_2_alg».proof.Proof.LibKeepdims
import proofs.«100685_j26448408609009_2_alg».proof.Proof.LibRowMax

noncomputable section

namespace Cert.Attn.Pay

open Cert.KernelIdeal Cert.KernelIdeal.Gen Idealize.ShloMosaic Idealize.ShloMosaic.ValueIdx
open scoped BigOperators

/-! ## The projection and its two stored forms -/

/-- The first linear map with its bias, read at (n, e): the product's row-by-column sum plus the bias row's entry. -/
theorem pay1_apply (v0 : Vec Ideal S1x1024x512 .f32) (v3 : Vec Ideal S512x1024 .f32) (v6 : Vec Ideal S1x1024 .f32) (n e : Fin 1024) :
    k0_pay1 (F := Ideal) v0 v3 v6 (ix2 n e) = (∑ d : Fin 512, v0 (ix3 0 n d) * v3 (ix2 d e)) + v6 (ix2 0 e) := by
  unfold k0_pay1
  refine (addf_apply _ _ _).trans (congrArg₂ (· + ·) ?_ ?_)
  · refine (Cert.LibPlainMatmul.matmul_zero_plain _ _ _ n e).trans ?_
    refine Finset.sum_congr rfl fun d _ => congrArg₂ (· * ·) ?_ rfl
    exact shapeCast_1ab_ab_apply v0 _ n d
  · exact (broadcastTo_1b_ab_apply _ _ n e).trans (congrFun (shapeCast_self v6 _) _)

/-- Narrowing the format and re-laying an array in its own shape change no value. -/
theorem pay2_apply (v0 : Vec Ideal S1x1024x512 .f32) (v3 : Vec Ideal S512x1024 .f32) (v6 : Vec Ideal S1x1024 .f32) (n e : Fin 1024) :
    k0_pay2 (F := Ideal) v0 v3 v6 (ix2 n e) = k0_pay1 (F := Ideal) v0 v3 v6 (ix2 n e) := by
  unfold k0_pay2
  exact congrFun (shapeCast_self _ _) (ix2 n e)

/-- The key is the positive part of the projection. -/
theorem pay3_apply (v0 : Vec Ideal S1x1024x512 .f32) (v3 : Vec Ideal S512x1024 .f32) (v6 : Vec Ideal S1x1024 .f32) (n e : Fin 1024) :
    k0_pay3 (F := Ideal) v0 v3 v6 (ix2 n e) = max (k0_pay1 (F := Ideal) v0 v3 v6 (ix2 n e)) 0 := by
  unfold k0_pay3
  refine (congrFun (shapeCast_self _ _) (ix2 n e)).trans ?_
  show max (k0_pay1 (F := Ideal) v0 v3 v6 (ix2 n e)) (Ideal.ofBits .f32 0x00000000#32) = _
  rw [Ideal.ofBits_zero_f32]

/-! ## One tile of query rows: the intermediate arrays, each read at an index -/

section Tile
variable (v28 : FVec Ideal S512x1024 .bf16) (v29 : FVec Ideal S1024x1024 .bf16)

/-- The tile's logits: the query rows times the transposed keys, scaled. -/
def lgt : FVec Ideal S512x1024 .f32 :=
  mulf (matmul dot_S512x1024_S1024x1024_S512x1024_1_0_0_1_n_n none v28
      (transpose S1024x1024 [1, 0] v29 transposes_S1024x1024_p1_0_S1024x1024) (constant S512x1024 .f32 0x00000000#32))
    (broadcast S512x1024 (Scalar.ofBits .f32 0x3D000000#32))

/-- Each row's largest logit, joined with −∞. -/
def rmx : FVec Ideal S512 .f32 :=
  maximumf (broadcast S512 (Scalar.ofBits .f32 0xFF800000#32))
    (multiReduction .maximumf [1] S512 (lgt v28 v29) 0xFF800000#32 reduces_S512x1024_S512 (.inl rfl) rfl)

/-- The exponentials of the logits shifted by their row's maximum. -/
def ex : FVec Ideal S512x1024 .f32 :=
  exp (subf (lgt v28 v29)
    (broadcastTo S512x1024 (shapeCast S512x1 (rmx v28 v29) shapeCasts_S512_S512x1) broadcasts_S512x1_S512x1024))

/-- Each row's sum of exponentials. -/
def den : FVec Ideal S512 .f32 :=
  multiReduction .add [1] S512 (ex v28 v29) 0x00000000#32 reduces_S512x1024_S512 (.inl rfl) rfl

/-- The softmax weights. -/
def wgt : FVec Ideal S512x1024 .f32 :=
  divf (ex v28 v29)
    (broadcastTo S512x1024 (shapeCast S512x1 (den v28 v29) shapeCasts_S512_S512x1) broadcasts_S512x1_S512x1024)

theorem lgt_apply (r : Fin 512) (m : Fin 1024) :
    lgt v28 v29 (ix2 r m) = Cert.Attn.logit (fun e => v28 (ix2 r e)) (fun m e => v29 (ix2 m e)) m := by
  unfold lgt Cert.Attn.logit
  refine (mulf_apply _ _ _).trans (congrArg₂ (· * ·) ?_ rfl)
  refine (Cert.LibPlainMatmul.matmul_zero_plain _ _ _ r m).trans ?_
  refine Finset.sum_congr rfl fun e _ => congrArg₂ (· * ·) rfl ?_
  exact transpose_ix2_apply v29 _ e m

theorem rmx_apply (r : Fin 512) :
    rmx v28 v29 (ix1 r) = Cert.Attn.rowMax (fun e => v28 (ix2 r e)) (fun m e => v29 (ix2 m e)) := by
  unfold rmx Cert.Attn.rowMax
  refine (maximumf_apply _ _ _).trans (congrArg₂ max rfl ?_)
  refine (Cert.LibRowMax.multiReduction_maximumf_row _ _ _ _ _ r).trans ?_
  exact congrArg (fun f => (Finset.univ : Finset (Fin 1024)).fold max Cert.Attn.ninf f)
    (funext fun m => lgt_apply v28 v29 r m)

theorem ex_apply (r : Fin 512) (m : Fin 1024) :
    ex v28 v29 (ix2 r m) = Cert.Attn.expo (fun e => v28 (ix2 r e)) (fun m e => v29 (ix2 m e)) m := by
  unfold ex Cert.Attn.expo
  show Ideal.exp (_ - _) = _
  refine congrArg Ideal.exp (congrArg₂ (· - ·) (lgt_apply v28 v29 r m) ?_)
  refine (Cert.LibKeepdims.broadcastTo_a1_ab_apply _ _ r m).trans ?_
  exact (Cert.LibKeepdims.shapeCast_a_a1_apply _ _ r 0).trans (rmx_apply v28 v29 r)

theorem den_apply (r : Fin 512) :
    den v28 v29 (ix1 r) = Cert.Attn.denom (fun e => v28 (ix2 r e)) (fun m e => v29 (ix2 m e)) := by
  unfold den Cert.Attn.denom
  refine (Cert.LibKeepdims.multiReduction_add_row _ _ _ _ _ r).trans ?_
  exact Finset.sum_congr rfl fun m _ => ex_apply v28 v29 r m

theorem wgt_apply (r : Fin 512) (m : Fin 1024) :
    wgt v28 v29 (ix2 r m) = Cert.Attn.weight (fun e => v28 (ix2 r e)) (fun m e => v29 (ix2 m e)) m := by
  unfold wgt Cert.Attn.weight
  refine (divf_apply _ _ _).trans (congrArg₂ Ideal.div (ex_apply v28 v29 r m) ?_)
  refine (Cert.LibKeepdims.broadcastTo_a1_ab_apply _ _ r m).trans ?_
  exact (Cert.LibKeepdims.shapeCast_a_a1_apply _ _ r 0).trans (den_apply v28 v29 r)

end Tile

/-! ## The tile's output -/

/-- One tile's output at (0, r, d): the weights applied to the values, the second linear map and its bias, and the
    positive part, which is the row-level function of the specification at the tile's row r. -/
theorem pay4_apply (v20 : Vec Ideal S1024x512 .f32) (v22 : Vec Ideal S1x512 .f32) (v28 : Vec Ideal S512x1024 .bf16)
    (v29 v30 : Vec Ideal S1024x1024 .bf16) (r d : Fin 512) :
    k0_pay4 (F := Ideal) v20 v22 v28 v29 v30 (ix3 0 r d)
      = Cert.Attn.rowOut (fun e => v28 (ix2 r e)) (fun m e => v29 (ix2 m e)) (fun m e => v30 (ix2 m e))
          (fun e d => v20 (ix2 e d)) (fun d => v22 (ix2 0 d)) d := by
  unfold k0_pay4 Cert.Attn.rowOut
  refine (shapeCast_ab_1ab_apply _ _ 0 r d).trans ?_
  refine (maximumf_apply _ _ _).trans (congrArg₂ max ?_ Ideal.ofBits_zero_f32)
  refine (addf_apply _ _ _).trans (congrArg₂ (· + ·) ?_ ?_)
  · refine (Cert.LibPlainMatmul.matmul_zero_plain _ _ _ r d).trans ?_
    refine Finset.sum_congr rfl fun e _ => congrArg₂ (· * ·) ?_ rfl
    unfold Cert.Attn.feature
    refine (Cert.LibPlainMatmul.matmul_zero_plain (φ₁ := .bf16) (φ₂ := .bf16) _ _ v30 r e).trans ?_
    refine Finset.sum_congr rfl fun m _ => congrArg₂ (· * ·) ?_ rfl
    exact wgt_apply v28 v29 r m
  · exact (broadcastTo_1b_ab_apply _ _ r d).trans (congrFun (shapeCast_self v22 _) _)

end Cert.Attn.Pay

end
-- ==== Proof.KernelBlock.lean ====
/-
  What one grid point's body leaves in the output block, at the exact instance.

  The body first fills two scratch matrices — the projection of the batch entry's 1024 rows and its positive part — and
  then, in two trips of a counted loop, computes the attention rows of 512 query rows at a time (queries: rows
  512·k … 512·k + 511 of the first scratch matrix; keys: the second; values: the first) and stores each tile into the rows
  of the output block it belongs to. Each trip's store therefore holds the block function `blockOut` of the five loaded
  blocks restricted to the trip's rectangle, the two rectangles cover the block, and so the block ends holding
  `blockOut` everywhere.
-/
import proofs.«100685_j26448408609009_2_alg».proof.Proof.Gen.KernelIdeal.Frame
import proofs.«100685_j26448408609009_2_alg».proof.Proof.BlockFn
import proofs.«100685_j26448408609009_2_alg».proof.Proof.Payload
import Idealize.ShloMosaic.Lib.Pipeline.Value
import Idealize.ShloMosaic.Lib.ValueIdx

set_option maxRecDepth 16384

noncomputable section

namespace Cert.Attn.Block

open Cert.KernelIdeal Cert.KernelIdeal.Gen Idealize.ShloMosaic Idealize.ShloMosaic.TcCoe Idealize.ShloMosaic.ValueIdx
open Idealize.SL.Sem Cert.Attn.Pay
open scoped BigOperators
section Generic
variable {F : FTy → Type} [FloatOps F]

/-- Every piece the loop has written before trip `n` was written by one of its trips. -/
theorem mem_pieces_before (𝒱 : Variants) (c : Dev nD) (bd : Option 𝒱.V) (i : grid0.Coords) (arg1 : Memref sig .tc .vmem S1x1024x512 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1024x1024 .bf16) (harg8 : arg8.IsWhole) (v20 : Vec F S1024x512 .f32) (v22 : Vec F S1x512 .f32) (X7 : BufTy.Contents (Elt F) arg7.view.ty) (X8 : BufTy.Contents (Elt F) arg8.view.ty) :
    ∀ (n : ℕ) (p : View.Piece (Elt F) S1x1024x512 .f32), p ∈ pb_k0_t1 (F := F) 𝒱 c bd i arg1 harg1 arg2 harg2 arg3 harg3 arg4 harg4 arg5 harg5 arg6 harg6 arg7 harg7 arg8 harg8 v20 v22 X7 X8 n →
      ∃ k : Fin k0_t1_loop.trips, p ∈ tripL_k0_t1 (F := F) 𝒱 c bd i arg1 harg1 arg2 harg2 arg3 harg3 arg4 harg4 arg5 harg5 arg6 harg6 arg7 harg7 arg8 harg8 v20 v22 X7 X8 k
  | 0, p, h => by rw [pb_k0_t1] at h; exact absurd h List.not_mem_nil
  | n + 1, p, h => by
    rw [pb_k0_t1.eq_2] at h
    unfold pb_k0_t1Step at h
    split at h
    · rename_i hn
      rcases List.mem_append.mp h with h | h
      · exact ⟨⟨n, hn⟩, h⟩
      · exact mem_pieces_before 𝒱 c bd i arg1 harg1 arg2 harg2 arg3 harg3 arg4 harg4 arg5 harg5 arg6 harg6 arg7 harg7 arg8 harg8 v20 v22 X7 X8 n p h
    · exact mem_pieces_before 𝒱 c bd i arg1 harg1 arg2 harg2 arg3 harg3 arg4 harg4 arg5 harg5 arg6 harg6 arg7 harg7 arg8 harg8 v20 v22 X7 X8 n p h

/-- One trip writes one piece: rows `512·k … 512·k + 511` of the output block, holding the tile computed from the
    same rows of the first scratch buffer as queries, the second scratch buffer as keys and the first as values. -/
theorem trip_piece (𝒱 : Variants) (c : Dev nD) (bd : Option 𝒱.V) (i : grid0.Coords) (arg1 : Memref sig .tc .vmem S1x1024x512 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1024x1024 .bf16) (harg8 : arg8.IsWhole) (v20 : Vec F S1024x512 .f32) (v22 : Vec F S1x512 .f32) (X7 : BufTy.Contents (Elt F) arg7.view.ty) (X8 : BufTy.Contents (Elt F) arg8.view.ty) (k : Fin k0_t1_loop.trips) :
    tripL_k0_t1 (F := F) 𝒱 c bd i arg1 harg1 arg2 harg2 arg3 harg3 arg4 harg4 arg5 harg5 arg6 harg6 arg7 harg7 arg8 harg8 v20 v22 X7 X8 k
      = [⟨Rect.unit (k0_off2 k) S1x512x512.size (k0_off2_inb k),
          k0_pay4 v20 v22 (View.readAt (Elt F) arg7.view (Rect.unit (s := S1024x1024) (k0_off1 k) S512x1024.size (k0_off1_inb k)).toLoadRect X7)
            (View.readAt (Elt F) arg8.view (Rect.unit (s := S1024x1024) ![0, 0] S1024x1024.size inb_S1024x1024_S1024x1024_0_0).toLoadRect X8)
            (View.readAt (Elt F) arg7.view (Rect.unit (s := S1024x1024) ![0, 0] S1024x1024.size inb_S1024x1024_S1024x1024_0_0).toLoadRect X7)⟩] := by
  unfold tripL_k0_t1 trip_k0_t1
  rfl

end Generic

/-- A tile of 512 query rows: when the query rows are rows `512·k + r` of the projection, the keys its positive part
    and the values the projection itself, the tile's entry `(r, d)` is the block's entry `(512·k + r, d)`. -/
theorem tile_value (x0 : Vec Ideal S1x1024x512 .f32) (x1 : Vec Ideal S512x1024 .f32) (x2 : Vec Ideal S1x1024 .f32)
    (x3 : Vec Ideal S1024x512 .f32) (x4 : Vec Ideal S1x512 .f32)
    (w2 : Vec Ideal S1024x512 .f32) (bb : Vec Ideal S1x512 .f32)
    (Q : Vec Ideal S512x1024 .bf16) (Kk Vv : Vec Ideal S1024x1024 .bf16) (off : ℕ) (hw : w2 = x3) (hb : bb = x4)
    (hQ : ∀ (r : Fin 512) (n : Fin 1024) (e : Fin 1024), n.val = off + r.val → Q (ix2 r e) = bproj x0 x1 x2 n e)
    (hK : ∀ m e : Fin 1024, Kk (ix2 m e) = max (bproj x0 x1 x2 m e) 0)
    (hV : ∀ m e : Fin 1024, Vv (ix2 m e) = bproj x0 x1 x2 m e)
    (x : S1x512x512.Idx) (y : S1x1024x512.Idx) (hy1 : (y 1).val = off + (x 1).val) (hy2 : (y 2).val = (x 2).val) :
    k0_pay4 (F := Ideal) w2 bb Q Kk Vv x = blockOut x0 x1 x2 x3 x4 y := by
  subst hw hb
  obtain ⟨u, r, d, rfl⟩ : ∃ (u : Fin 1) (r d : Fin 512), x = ix3 u r d := ⟨x 0, x 1, x 2, eq_ix3 x⟩
  obtain rfl : u = 0 := Subsingleton.elim _ _
  rw [pay4_apply]
  unfold blockOut
  have e2 : y 2 = d := Fin.ext hy2
  have hq : (fun e => Q (ix2 r e)) = bproj x0 x1 x2 (y 1) := funext fun e => hQ r (y 1) e hy1
  have hk : (fun m e => Kk (ix2 m e)) = fun m e => max (bproj x0 x1 x2 m e) 0 := funext fun m => funext fun e => hK m e
  have hv : (fun m e => Vv (ix2 m e)) = bproj x0 x1 x2 := funext fun m => funext fun e => hV m e
  rw [hq, hk, hv, e2]

/-! ## What the body's loads read -/

section Reads
variable {F : FTy → Type} [FloatOps F]

theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl

/-- A load of a whole staging buffer holding `x` reads `x`. -/
theorem load_whole {S : Shape} {e : EltTy} (arg : Memref sig .tc .vmem S e) (harg : arg.IsWhole) (x : Vec F S e)
    (off : Fin S.rank → ℕ) (hz : off = fun _ => 0) (inb : ∀ a, off a + S.size a ≤ S.size a) :
    View.readAt (Elt F) arg.view (Rect.unit off S.size inb).toLoadRect (harg.unread x) = x := by
  rw [View.readAt_eq_ld, harg.read_unread, View.ld_unit_zero hz]

/-- A buffer written once, whole, over anything reads back what was written. -/
theorem read_written_whole {S : Shape} {e : EltTy} (arg : Memref sig .tc .vmem S e) (f : arg.view.ty.Contents (Elt F))
    (off : Fin S.rank → ℕ) (hz : off = fun _ => 0) (inb : ∀ a, off a + S.size a ≤ S.size a) (w : S.Idx → Elt F e) :
    arg.view.read (Elt F) (arg.view.writes (Elt F) f [⟨Rect.unit off S.size inb, w⟩]) = w := by
  rw [View.read_writes_eq_canon _ _ _ (fun y => ⟨_, List.mem_singleton_self _, View.mem_set_unit_zero hz inb y⟩),
    View.canon_unit_zero hz]
end Reads

/-- The piece one trip writes, when the first scratch buffer holds the projection and the second its positive part,
    is the block function restricted to the trip's rows. -/
theorem trip_piece_agrees (x0 : Vec Ideal S1x1024x512 .f32) (x1 : Vec Ideal S512x1024 .f32) (x2 : Vec Ideal S1x1024 .f32)
    (x3 : Vec Ideal S1024x512 .f32) (x4 : Vec Ideal S1x512 .f32) (w2 : Vec Ideal S1024x512 .f32) (bb : Vec Ideal S1x512 .f32)
    (arg7 arg8 : Memref sig .tc .vmem S1024x1024 .bf16)
    (X7 : BufTy.Contents (Elt Ideal) arg7.view.ty) (X8 : BufTy.Contents (Elt Ideal) arg8.view.ty) (k : Fin k0_t1_loop.trips)
    (hw : w2 = x3) (hb : bb = x4)
    (h7 : arg7.view.read (Elt Ideal) X7 = k0_pay2 (F := Ideal) x0 x1 x2) (h8 : arg8.view.read (Elt Ideal) X8 = k0_pay3 (F := Ideal) x0 x1 x2)
    (x : S1x512x512.Idx) :
    k0_pay4 (F := Ideal) w2 bb
        (View.readAt (Elt Ideal) arg7.view (Rect.unit (s := S1024x1024) (k0_off1 k) S512x1024.size (k0_off1_inb k)).toLoadRect X7)
        (View.readAt (Elt Ideal) arg8.view (Rect.unit (s := S1024x1024) ![0, 0] S1024x1024.size inb_S1024x1024_S1024x1024_0_0).toLoadRect X8)
        (View.readAt (Elt Ideal) arg7.view (Rect.unit (s := S1024x1024) ![0, 0] S1024x1024.size inb_S1024x1024_S1024x1024_0_0).toLoadRect X7) x
      = blockOut x0 x1 x2 x3 x4 ((Rect.unit (s := S1x1024x512) (k0_off2 k) S1x512x512.size (k0_off2_inb k)).emb x) := by
  have o1 := k0_off1_eq k
  have o2 := k0_off2_eq k
  refine tile_value x0 x1 x2 x3 x4 w2 bb _ _ _ (512 * k.val) hw hb ?_ ?_ ?_ x _ ?_ ?_
  · intro r n e hn
    rw [View.readAt_eq_ld, h7]
    show k0_pay2 (F := Ideal) x0 x1 x2 ((Rect.unit (s := S1024x1024) (k0_off1 k) S512x1024.size (k0_off1_inb k)).idx (ix2 r e)) = _
    have hi : (Rect.unit (s := S1024x1024) (k0_off1 k) S512x1024.size (k0_off1_inb k)).idx (ix2 r e) = ix2 n e :=
      funext fun a => Fin.ext (by
        match a with
        | ⟨0, _⟩ =>
          show k0_off1 k 0 + 1 * r.val = n.val
          rw [o1, hn]; show 512 * k.val + 1 * r.val = _; omega
        | ⟨1, _⟩ =>
          show k0_off1 k 1 + 1 * e.val = e.val
          rw [o1]; show 0 + 1 * e.val = _; omega)
    rw [hi, pay2_apply, pay1_apply]; rfl
  · intro m e
    rw [View.readAt_eq_ld, h8, View.ld_unit_zero zeros2, pay3_apply, pay1_apply]; rfl
  · intro m e
    rw [View.readAt_eq_ld, h7, View.ld_unit_zero zeros2, pay2_apply, pay1_apply]; rfl
  · show k0_off2 k 1 + 1 * (x 1).val = 512 * k.val + (x 1).val
    rw [o2]; show 512 * k.val + 1 * (x 1).val = _; omega
  · show k0_off2 k 2 + 1 * (x 2).val = (x 2).val
    rw [o2]; show 0 + 1 * (x 2).val = _; omega

/-! ## The run's pieces are restrictions of the block function -/

/-- Every piece the body's run leaves in the output's staging buffer is the block function on its rectangle. -/
theorem pieces_agree (c : Dev nD) (i : grid0.Coords) (arg1 : Memref sig .tc .vmem S1x1024x512 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1024x1024 .bf16) (harg8 : arg8.IsWhole)
    (x0 : Vec Ideal S1x1024x512 .f32) (x1 : Vec Ideal S512x1024 .f32) (x2 : Vec Ideal S1x1024 .f32) (x3 : Vec Ideal S1024x512 .f32) (x4 : Vec Ideal S1x512 .f32) :
    ∀ p ∈ (kernelRun0_A (F := Ideal) c i arg1 harg1 arg2 harg2 arg3 harg3 arg4 harg4 arg5 harg5 arg6 harg6 arg7 harg7 arg8 harg8 x0 x1 x2 x3 x4).1, ∀ x : p.1.shape.Idx,
      p.2 x = blockOut x0 x1 x2 x3 x4 (p.1.emb x) := by
  intro p hp
  unfold kernelRun0_A at hp
  dsimp only at hp
  obtain ⟨k, hk⟩ := mem_pieces_before _ _ _ _ _ _ _ _ _ _ _ _ _ _ _ _ _ _ _ _ _ _ _ _ _ p hp
  rw [trip_piece] at hk
  obtain rfl := List.mem_singleton.mp hk
  intro x
  have e0 := load_whole (F := Ideal) arg1 harg1 x0 _ zeros3 inb_S1x1024x512_S1x1024x512_0_0_0
  have e1 := load_whole (F := Ideal) arg2 harg2 x1 _ zeros2 inb_S512x1024_S512x1024_0_0
  have e2 := load_whole (F := Ideal) arg3 harg3 x2 _ zeros2 inb_S1x1024_S1x1024_0_0
  refine trip_piece_agrees x0 x1 x2 x3 x4 _ _ arg7 arg8 _ _ k
    (load_whole (F := Ideal) arg4 harg4 x3 _ zeros2 inb_S1024x512_S1024x512_0_0)
    (load_whole (F := Ideal) arg5 harg5 x4 _ zeros2 inb_S1x512_S1x512_0_0) ?_ ?_ x
  · unfold kernelRun0_A.sl.HS0_1
    rw [read_written_whole (F := Ideal) arg7 _ _ zeros2, e0, e1, e2]
  · unfold kernelRun0_A.sl.HS1_1
    rw [read_written_whole (F := Ideal) arg8 _ _ zeros2, e0, e1, e2]

/-! ## The output block after the body -/

/-- After the body the output's staging buffer holds the block function of the five loaded blocks: its pieces are
    restrictions of that one function and they cover the block. -/
theorem out_block (c : Dev nD) (i : grid0.Coords) (arg1 : Memref sig .tc .vmem S1x1024x512 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1024x1024 .bf16) (harg8 : arg8.IsWhole)
    (x0 : Vec Ideal S1x1024x512 .f32) (x1 : Vec Ideal S512x1024 .f32) (x2 : Vec Ideal S1x1024 .f32) (x3 : Vec Ideal S1024x512 .f32) (x4 : Vec Ideal S1x512 .f32) :
    out0_A_5 (F := Ideal) c i arg1 harg1 arg2 harg2 arg3 harg3 arg4 harg4 arg5 harg5 arg6 harg6 arg7 harg7 arg8 harg8 x0 x1 x2 x3 x4 = blockOut x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  funext y
  exact View.canon_apply_of_pieces (blockOut x0 x1 x2 x3 x4) _
    (pieces_agree c i arg1 harg1 arg2 harg2 arg3 harg3 arg4 harg4 arg5 harg5 arg6 harg6 arg7 harg7 arg8 harg8 x0 x1 x2 x3 x4) y (cover0_A_5 c i arg1 harg1 arg2 harg2 arg3 harg3 arg4 harg4 arg5 harg5 arg6 harg6 arg7 harg7 arg8 harg8 x0 x1 x2 x3 x4 y)

end Cert.Attn.Block

end
-- ==== Proof.BlockArgs.lean ====
/-
  From the blocks the body loads to the layer's arguments.

  At grid point t the body finds six blocks. The first is batch entry t of the input, a [1, 1024, 512] slab of the
  [64, 1024, 512] array; the two weight matrices come whole; the two bias vectors come as one-row matrices, each the
  vector re-laid in row-major order before the launch; the sixth, the output's, is batch entry t of the result.

  A block's coordinate on an axis is always (block index) × (block extent) + (coordinate inside the block). The block
  indices are decided once over the 64 grid points: the input's and the output's agree on the batch axis and are 0
  on the others, and every other block's are 0. Reading each block at coordinates then gives the argument at the
  matching place, and the block function of BlockFn on the five loaded blocks is, index by index, the layer's
  function G of the five arguments at the index the output window gives.
-/
import proofs.«100685_j26448408609009_2_alg».proof.Proof.Gen.KernelIdeal.Frame
import proofs.«100685_j26448408609009_2_alg».proof.Proof.BlockFn
import proofs.«100685_j26448408609009_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.Attn.Block

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ)

/-- The printed index maps over the grid: the batch entry's block and the output's block move together along the
    batch axis and stay at 0 on the others; every other block stays at the origin. -/
theorem idx_facts : ∀ t : Fin cfg0.N, win0_0.index t (0 : Fin 3) = win0_5.index t (0 : Fin 3)
    ∧ win0_0.index t (1 : Fin 3) = 0 ∧ win0_0.index t (2 : Fin 3) = 0
    ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## Each block the body loads, read at coordinates -/

/-- The first weight matrix's block is the whole matrix. -/
theorem blk1_apply (c : Dev nD) (t : Fin cfg0.N) (d : Fin 512) (e : Fin 1024) :
    iblk m c 1 t (ix2 d e) = m ((c : Thread nD τ).loc main_arg1) (ix2 d e) := by
  unfold iblk
  show V m c main_arg1 (((cfg0.win 1).blk t).view.emb (ix2 d e)) = _
  rw [V_main_arg1]
  refine congrArg (m ((c : Thread nD τ).loc main_arg1)) ?_
  obtain ⟨-, -, -, -, -, e0, e1, -⟩ := idx_facts t
  funext a; apply Fin.ext
  match a with
  | ⟨0, _⟩ => show win0_1.index t (0 : Fin 2) * 512 + 1 * d.val = d.val; omega
  | ⟨1, _⟩ => show win0_1.index t (1 : Fin 2) * 1024 + 1 * e.val = e.val; omega

/-- The second weight matrix's block is the whole matrix. -/
theorem blk3_apply (c : Dev nD) (t : Fin cfg0.N) (e : Fin 1024) (d : Fin 512) :
    iblk m c 3 t (ix2 e d) = m ((c : Thread nD τ).loc main_arg3) (ix2 e d) := by
  unfold iblk
  show V m c main_arg3 (((cfg0.win 3).blk t).view.emb (ix2 e d)) = _
  rw [V_main_arg3]
  refine congrArg (m ((c : Thread nD τ).loc main_arg3)) ?_
  obtain ⟨-, -, -, -, -, -, -, -, -, e0, e1, -⟩ := idx_facts t
  funext a; apply Fin.ext
  match a with
  | ⟨0, _⟩ => show win0_3.index t (0 : Fin 2) * 1024 + 1 * e.val = e.val; omega
  | ⟨1, _⟩ => show win0_3.index t (1 : Fin 2) * 512 + 1 * d.val = d.val; omega

/-- The batch entry's block sits in the first argument where the output's block sits in the output: at the batch
    coordinate of the output block's indices, rows and columns unmoved. -/
theorem blk0_apply (c : Dev nD) (t : Fin cfg0.N) (j : S1x1024x512.Idx) (n : Fin 1024) (d : Fin 512) :
    iblk m c 0 t (ix3 0 n d)
      = m ((c : Thread nD τ).loc main_arg0) (ix3 (((cfg0.win 5).blk t).view.emb j 0 : Fin 64) n d) := by
  unfold iblk
  show V m c main_arg0 (((cfg0.win 0).blk t).view.emb (ix3 0 n d)) = _
  rw [V_main_arg0]
  refine congrArg (m ((c : Thread nD τ).loc main_arg0)) ?_
  obtain ⟨e0, e1, e2, -⟩ := idx_facts t
  have hj : (j 0).val < 1 := (j 0).isLt
  funext a; apply Fin.ext
  match a with
  | ⟨0, _⟩ => show win0_0.index t (0 : Fin 3) * 1 + 1 * 0 = win0_5.index t (0 : Fin 3) * 1 + 1 * (j 0).val; omega
  | ⟨1, _⟩ => show win0_0.index t (1 : Fin 3) * 1024 + 1 * n.val = n.val; omega
  | ⟨2, _⟩ => show win0_0.index t (2 : Fin 3) * 512 + 1 * d.val = d.val; omega

/-- The first bias reaches the body as a one-row matrix: the vector re-laid in row-major order. -/
theorem blk2_apply (c : Dev nD) (t : Fin cfg0.N) (e : Fin 1024) :
    iblk m c 2 t (ix2 0 e) = m ((c : Thread nD τ).loc main_arg2) (ix1 e) := by
  unfold iblk
  show V m c main_v0 (((cfg0.win 2).blk t).view.emb (ix2 0 e)) = _
  have ev : (V m c main_v0 : S1x1024.Idx → EReal)
      = shapeCast S1x1024 (m ((c : Thread nD τ).loc main_arg2)) shapeCasts_S1024_S1x1024 := by
    dsimp only [Gen.V, Gen.hostOps0]; after_results; rfl
  rw [ev]
  have hi : ((cfg0.win 2).blk t).view.emb (ix2 0 e) = ix2 (0 : Fin 1) e := by
    obtain ⟨-, -, -, -, -, -, -, e0, e1, -⟩ := idx_facts t
    funext a; apply Fin.ext
    match a with
    | ⟨0, _⟩ => show win0_2.index t (0 : Fin 2) * 1 + 1 * 0 = 0; omega
    | ⟨1, _⟩ => show win0_2.index t (1 : Fin 2) * 1024 + 1 * e.val = e.val; omega
  rw [hi]
  exact shapeCast_a_1a_apply _ _ 0 e

/-- The second bias likewise. -/
theorem blk4_apply (c : Dev nD) (t : Fin cfg0.N) (d : Fin 512) :
    iblk m c 4 t (ix2 0 d) = m ((c : Thread nD τ).loc main_arg4) (ix1 d) := by
  unfold iblk
  show V m c main_v1 (((cfg0.win 4).blk t).view.emb (ix2 0 d)) = _
  have ev : (V m c main_v1 : S1x512.Idx → EReal)
      = shapeCast S1x512 (m ((c : Thread nD τ).loc main_arg4)) shapeCasts_S512_S1x512 := by
    dsimp only [Gen.V, Gen.hostOps0]; after_results; rfl
  rw [ev]
  have hi : ((cfg0.win 4).blk t).view.emb (ix2 0 d) = ix2 (0 : Fin 1) d := by
    obtain ⟨-, -, -, -, -, -, -, -, -, -, -, e0, e1⟩ := idx_facts t
    funext a; apply Fin.ext
    match a with
    | ⟨0, _⟩ => show win0_4.index t (0 : Fin 2) * 1 + 1 * 0 = 0; omega
    | ⟨1, _⟩ => show win0_4.index t (1 : Fin 2) * 512 + 1 * d.val = d.val; omega
  rw [hi]
  exact shapeCast_a_1a_apply _ _ 0 d

/-! ## The block function on the loaded blocks is the layer's function on the arguments -/

/-- The row-level function respects equality of each of its arguments. -/
theorem rowOut_congr {q q' : Fin 1024 → EReal} {K K' V V' : Fin 1024 → Fin 1024 → EReal}
    {w w' : Fin 1024 → Fin 512 → EReal} {bb bb' : Fin 512 → EReal} {d d' : Fin 512}
    (hq : q = q') (hK : K = K') (hV : V = V') (hw : w = w') (hb : bb = bb') (hd : d = d') :
    Cert.Attn.rowOut q K V w bb d = Cert.Attn.rowOut q' K' V' w' bb' d' := by
  subst hq hK hV hw hb hd; rfl

/-- The output block computed from the blocks the body finds at grid point t is, index by index, the layer's output
    array of the arguments at the place the output window puts that index. -/
theorem block_is_G (c : Dev nD) (t : Fin cfg0.N) (j : S1x1024x512.Idx) :
    blockOut (iblk m c 0 t) (iblk m c 1 t) (iblk m c 2 t) (iblk m c 3 t) (iblk m c 4 t) j
      = Cert.Attn.G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb j) := by
  obtain ⟨-, -, -, e1, e2, -⟩ := idx_facts t
  have hn : (((cfg0.win 5).blk t).view.emb j 1 : Fin 1024) = j 1 :=
    Fin.ext (by show win0_5.index t (1 : Fin 3) * 1024 + 1 * (j 1).val = (j 1).val; omega)
  have hd : (((cfg0.win 5).blk t).view.emb j 2 : Fin 512) = j 2 :=
    Fin.ext (by show win0_5.index t (2 : Fin 3) * 512 + 1 * (j 2).val = (j 2).val; omega)
  have hp : bproj (iblk m c 0 t) (iblk m c 1 t) (iblk m c 2 t)
      = Cert.Attn.proj (m ((c : Thread nD τ).loc main_arg0)) (m ((c : Thread nD τ).loc main_arg1)) (m ((c : Thread nD τ).loc main_arg2))
          (((cfg0.win 5).blk t).view.emb j 0 : Fin 64) :=
    funext fun n => funext fun e =>
      congrArg₂ (· + ·)
        (Finset.sum_congr rfl fun d _ => congrArg₂ (· * ·) (blk0_apply m c t j n d) (blk1_apply m c t d e))
        (blk2_apply m c t e)
  unfold blockOut Cert.Attn.G Cert.Attn.out
  refine rowOut_congr ?_ ?_ hp ?_ ?_ hd.symm
  · exact (congrFun hp (j 1)).trans (congrArg _ hn.symm)
  · exact funext fun n => funext fun e => congrArg (fun x => max x 0) (congrFun (congrFun hp n) e)
  · exact funext fun e => funext fun d => blk3_apply m c t e d
  · exact funext fun d => blk4_apply m c t d

end Cert.Attn.Block

end
-- ==== Proof.Whole.lean ====
/-
  From the blocks to the whole array.

  The kernel's grid has 64 points; point t writes back the block [1, 1024, 512] of the output array [64, 1024, 512]
  at block index (t, 0, 0), that is, batch entry t, and every point writes back. So the blocks tile the array: the
  index (b, n, d) lies in the block of point b and in no other. Hence, if what each point writes back is its block of
  one function Gm of the whole array, the array ends holding Gm.
-/
import proofs.«100685_j26448408609009_2_alg».proof.Proof.Gen.KernelIdeal.Value
import Idealize.ShloMosaic.Lib.Pipeline.Value

noncomputable section

namespace Cert.Attn.Whole

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The output's block index at point t is (t, 0, 0). -/
theorem idx5 : ∀ t : Fin cfg0.N, win0_5.index t (0 : Fin 3) = t.val ∧ win0_5.index t (1 : Fin 3) = 0
    ∧ win0_5.index t (2 : Fin 3) = 0 :=
  (by decide +kernel : ∀ t : Fin grid0.N, _)

/-- An index of the array is in point t's block iff each coordinate is in the block's range on its axis. -/
theorem mem_blk5 (t : Fin cfg0.N) (i : S64x1024x512.Idx) :
    i ∈ ((cfg0.win 5).blk t).view.set ↔ ∀ a : Fin 3, win0_5.index t a * S1x1024x512.size a ≤ (i a).val
      ∧ (i a).val < win0_5.index t a * S1x1024x512.size a + S1x1024x512.size a := by
  show i ∈ ((View.whole main_v2).slice (win0_5.rect t)).set ↔ _
  rw [View.set_slice_whole, Rect.mem_set_unit]
  exact Iff.rfl

/-- Every index (b, n, d) of the array lies in the block of the point b, and that point writes back. -/
theorem cover5 (i : S64x1024x512.Idx) :
    ∃ t : Fin cfg0.N, (cfg0.win 5).flush t = true ∧ i ∈ ((cfg0.win 5).blk t).view.set := by
  have hi0 : (i 0).val < 64 := (i 0).isLt
  have hi1 : (i 1).val < 1024 := (i 1).isLt
  have hi2 : (i 2).val < 512 := (i 2).isLt
  obtain ⟨t, ht⟩ : ∃ t : Fin cfg0.N, t.val = (i 0).val := ⟨⟨(i 0).val, hi0⟩, rfl⟩
  obtain ⟨e0, e1, e2⟩ := idx5 t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1024 ≤ (i 1).val ∧ (i 1).val < win0_5.index t (1 : Fin 3) * 1024 + 1024
    omega
  | ⟨2, _⟩ =>
    show win0_5.index t (2 : Fin 3) * 512 ≤ (i 2).val ∧ (i 2).val < win0_5.index t (2 : Fin 3) * 512 + 512
    omega

/-- If what every point writes back is its block of Gm, the output array ends holding Gm. -/
theorem whole_of_blocks (c : Dev nD) (Gm : S64x1024x512.Idx → Elt F .f32)
    (hfl : ∀ t : Fin cfg0.N, (dats m 0 c).flushed 5 t = ((cfg0.win 5).blk t).view.read (Elt F) Gm) :
    (dats m 0 c).arrAt 5 cfg0.N = Gm :=
  (dats m 0 c).arrAt_eq_of_cover 5 Gm (fun t _ => hfl t) cover5

/-- The run, with the output array named as one function per device, the arguments unchanged. -/
theorem run_of_blocks (Gm : Dev nD → S64x1024x512.Idx → Elt F .f32)
    (hfl : ∀ c (t : Fin cfg0.N), (dats m 0 c).flushed 5 t = ((cfg0.win 5).blk t).view.read (Elt F) (Gm c)) :
    θ_run defs (onTc (τ := τ) (main (F := F))) ⟨m, fun _ => 0, ρ⟩ fun r => ∀ c : Dev nD,
      r.2.mem ((c : Thread nD τ).loc main_v2) = Gm c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (whole_of_blocks m c (Gm c) (hfl c)), (h c).2⟩) (run_blocks m ρ)

end Cert.Attn.Whole

end
-- ==== Proof.KernelValue.lean ====
/-
  The kernel's result array at the exact instance: the layer's output `G` of the argument arrays.

  At grid point `t` the body is handed batch entry `t` of the input, the two weight matrices and the two biases as
  rows, and leaves in the output block the block function of them (`out_block`); read through the output window this
  is batch entry `t` of `G` of the arguments (`block_is_G`). The 64 blocks tile the result array, so after the run the
  array is `G` of the arguments.
-/
import proofs.«100685_j26448408609009_2_alg».proof.Proof.Gen.KernelIdeal.Value
import proofs.«100685_j26448408609009_2_alg».proof.Proof.KernelBlock
import proofs.«100685_j26448408609009_2_alg».proof.Proof.BlockArgs
import proofs.«100685_j26448408609009_2_alg».proof.Proof.Whole

noncomputable section

namespace Cert.Attn.Kernel

open Cert.KernelIdeal Cert.KernelIdeal.Gen Idealize.ShloMosaic Idealize.ShloMosaic.TcCoe Idealize.SL.Sem
open Cert.Attn.Block

variable (m : (ℓ : Loc nD τ sig) → Buf (Elt Ideal) ℓ) (ρ : Dev nD → PrngReg)

/-- The layer's output of the argument arrays as core `c` holds them. -/
def Gm (c : Dev nD) : S64x1024x512.Idx → Elt Ideal .f32 :=
  Cert.Attn.G (m ((c : Thread nD τ).loc main_arg0)) (m ((c : Thread nD τ).loc main_arg1)) (m ((c : Thread nD τ).loc main_arg2))
    (m ((c : Thread nD τ).loc main_arg3)) (m ((c : Thread nD τ).loc main_arg4))

/-- What grid point `t` writes back is block `t` of the layer's output. -/
theorem flushed_eq (c : Dev nD) (t : Fin cfg0.N) :
    (dats m 0 c).flushed 5 t = ((cfg0.win 5).blk t).view.read (Elt Ideal) (Gm m c) := by
  rw [Cert.KernelIdeal.Value.flushed5_A, out_block]
  funext j
  exact block_is_G m c t j

/-- The kernel's run ends with the result array at the layer's output of the arguments, the arguments unchanged. -/
theorem run : θ_run defs (onTc (τ := τ) (main (F := Ideal))) ⟨m, fun _ => 0, ρ⟩ fun r => ∀ c : Dev nD,
      r.2.mem ((c : Thread nD τ).loc main_v2) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  Cert.Attn.Whole.run_of_blocks m ρ (Gm m) (flushed_eq m)

end Cert.Attn.Kernel

end
-- ==== Proof.LibBatchedDot.lean ====
/-
  A batched rows-by-columns product on the host, over the extended reals, read at coordinates: for operands of shapes
  [b, m, k] and [b, k, n] with the leading axis a batch axis, the left operand contracted on its last axis and the
  right on its middle axis, the entry (p, q, s) of the result is the sum over the shared axis of the products of row
  q of slab p of the left operand and column s of slab p of the right.  A product record of any program with these
  dimension numbers unifies with `batchDims` by unfolding.
-/
import Idealize.ShloMosaic.Lib.ValueIdx
import Idealize.ShloMosaic.PureOps.Ideal.Laws

noncomputable section

namespace Cert.LibBatchedDot

open Idealize.ShloMosaic Idealize.ShloMosaic.ValueIdx
open scoped BigOperators

/-- The dimension numbers of a batched [b, m, k] by [b, k, n] product: axis 0 of both operands the batch axis, the
    left operand contracted on axis 2 and the right on axis 1. -/
abbrev batchDims {b m k n : Nat}
    (wf : DotDims.WF (⟨3, ![b, m, k]⟩ : Shape) ⟨3, ![b, k, n]⟩ ⟨3, ![b, m, n]⟩ [2] [1] [1] [2] [0] [0]) :
    DotDims ⟨3, ![b, m, k]⟩ ⟨3, ![b, k, n]⟩ ⟨3, ![b, m, n]⟩ := ⟨[2], [1], [1], [2], [0], [0], wf⟩

section BatchDims
variable {b m k n : Nat}
  (wf : DotDims.WF (⟨3, ![b, m, k]⟩ : Shape) ⟨3, ![b, k, n]⟩ ⟨3, ![b, m, n]⟩ [2] [1] [1] [2] [0] [0])

/-- The left operand is read in the result's slab … -/
theorem lhs_slab (j : (⟨3, ![b, m, n]⟩ : Shape).Idx) (c : (batchDims wf).contr.Idx) :
    ((batchDims wf).lhsIdx j c 0).val = (j 0).val := by
  unfold DotDims.lhsIdx
  rw [dif_pos (show (0 : Fin (⟨3, ![b, m, k]⟩ : Shape).rank) ∈ (batchDims wf).lhsBatch from List.mem_singleton.mpr rfl)]
  rfl

/-- … and row, … -/
theorem lhs_row (j : (⟨3, ![b, m, n]⟩ : Shape).Idx) (c : (batchDims wf).contr.Idx) :
    ((batchDims wf).lhsIdx j c 1).val = (j 1).val := by
  unfold DotDims.lhsIdx
  rw [dif_neg (show ¬(1 : Fin (⟨3, ![b, m, k]⟩ : Shape).rank) ∈ (batchDims wf).lhsBatch from fun h => Nat.one_ne_zero (congrArg Fin.val (List.mem_singleton.mp h))),
    dif_pos (show (1 : Fin (⟨3, ![b, m, k]⟩ : Shape).rank) ∈ (batchDims wf).lhsNonContracting from List.mem_singleton.mpr rfl)]
  rfl

/-- … the right operand in the result's slab … -/
theorem rhs_slab (j : (⟨3, ![b, m, n]⟩ : Shape).Idx) (c : (batchDims wf).contr.Idx) :
    ((batchDims wf).rhsIdx j c 0).val = (j 0).val := by
  unfold DotDims.rhsIdx
  rw [dif_pos (show (0 : Fin (⟨3, ![b, k, n]⟩ : Shape).rank) ∈ (batchDims wf).rhsBatch from List.mem_singleton.mpr rfl)]
  rfl

/-- … and column. -/
theorem rhs_col (j : (⟨3, ![b, m, n]⟩ : Shape).Idx) (c : (batchDims wf).contr.Idx) :
    ((batchDims wf).rhsIdx j c 2).val = (j 2).val := by
  unfold DotDims.rhsIdx
  rw [dif_neg (show ¬(2 : Fin (⟨3, ![b, k, n]⟩ : Shape).rank) ∈ (batchDims wf).rhsBatch from fun h => (by decide : (2 : ℕ) ≠ 0) (congrArg Fin.val (List.mem_singleton.mp h))),
    dif_pos (show (2 : Fin (⟨3, ![b, k, n]⟩ : Shape).rank) ∈ (batchDims wf).rhsNonContracting from List.mem_singleton.mpr rfl)]
  rfl

/-- The batched product at (p, q, s): the sum over the shared axis of row q of slab p of the left operand times
    column s of slab p of the right, whatever the precision annotation and the schedule. -/
theorem dotGeneral_batched {φ₁ φ₂ : FTy} (prec : Option ContractPrecision) (sched : HostSchedule)
    (l : FVec Ideal ⟨3, ![b, m, k]⟩ φ₁) (r : FVec Ideal ⟨3, ![b, k, n]⟩ φ₂) (p : Fin b) (q : Fin m) (s : Fin n) :
    FloatOps.dotGeneral (batchDims wf) prec sched l r (ix3 p q s) = ∑ c : Fin k, l (ix3 p q c) * r (ix3 p c s) := by
  rw [Ideal.dotGeneral_apply, ← Equiv.sum_comp (contrEquiv1 (batchDims wf) k rfl rfl).symm]
  refine Finset.sum_congr rfl fun c _ => ?_
  have hc := contrEquiv1_symm_val (batchDims wf) k rfl rfl c
  have el : (batchDims wf).lhsIdx (ix3 p q s) ((contrEquiv1 (batchDims wf) k rfl rfl).symm c) = ix3 p q c :=
    funext fun a => Fin.ext (by
      match a with
      | ⟨0, _⟩ => exact lhs_slab wf _ _
      | ⟨1, _⟩ => exact lhs_row wf _ _
      | ⟨2, _⟩ => exact ((batchDims wf).lhsIdx_val_of_single rfl _ _).trans hc)
  have er : (batchDims wf).rhsIdx (ix3 p q s) ((contrEquiv1 (batchDims wf) k rfl rfl).symm c) = ix3 p c s :=
    funext fun a => Fin.ext (by
      match a with
      | ⟨0, _⟩ => exact rhs_slab wf _ _
      | ⟨1, _⟩ => exact ((batchDims wf).rhsIdx_val_of_single rfl _ _).trans hc
      | ⟨2, _⟩ => exact rhs_col wf _ _)
  rw [el, er]

end BatchDims

end Cert.LibBatchedDot

end
-- ==== Proof.LibKeepdims3.lean ====
/-
  Keepdims forms of rank 3 read at an index given by coordinates, and the one-axis reductions of a rank-3
  vector read at the ideal values.

  A reduction that keeps the reduced axis as a unit axis prints as three operations: the reduction itself, a
  shape cast that puts the unit axis back, and a broadcast of the unit axis over the original extent. Read at
  an index `(i, k, j)` the cast and the broadcast only forget the coordinate on the unit axis; the reduction is
  the sum (or the fold of `max`) over that axis's coordinate with the other two held. Each lemma below says this
  for one operation, with the extents `a`, `b`, `c` arbitrary and every index written by its coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Keepdims3

open Idealize.ShloMosaic Idealize.ShloMosaic.ValueIdx

variable {α : Type}

/-! ## A unit axis put back by a shape cast -/

/-- An `[a, c]` array cast to `[a, 1, c]` reads, at `(i, u, j)`, the operand at `(i, j)`: both have row-major
    position `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`: both have row-major
    position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast over an extent -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ =>
    exact (if_pos rfl).symm
  | ⟨2, _⟩ =>
    show j.val = if c = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    exact (if_pos rfl).symm

/-- A `[1, b, c]` array broadcast to `[a, b, c]` reads, at `(k, i, j)`, the operand's one matrix at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (k : Fin a) (i : Fin b) (j : Fin c) :
    broadcastTo ⟨3, ![a, b, c]⟩ v h (ix3 k i j) = v (ix3 (0 : Fin 1) i j) := by
  refine broadcastTo_apply v h (ix3 k i j) (ix3 (0 : Fin 1) i j) fun ax => ?_
  match ax with
  | ⟨0, _⟩ =>
    exact (if_pos rfl).symm
  | ⟨1, _⟩ =>
    show i.val = if b = 1 then 0 else i.val
    split
    · have := i.isLt; omega
    · rfl
  | ⟨2, _⟩ =>
    show j.val = if c = 1 then 0 else j.val
    split
    · have := j.isLt; omega
    · rfl

/-! ## The index a one-axis reduction of a rank-3 vector reads -/

/-- Reducing the middle axis: the source index over result index `(i, j)` with middle coordinate `k` is `(i, k, j)`. -/
theorem lift_axis1 {a b c : ℕ} (h : (⟨3, ![a, b, c]⟩ : Shape).Reduces [1] (⟨2, ![a, c]⟩ : Shape)) (i : Fin a) (j : Fin c)
    (k : Fin ((⟨3, ![a, b, c]⟩ : Shape).size 1)) : h.lift (ix2 i j) k = ix3 i (⟨k.val, k.isLt⟩ : Fin b) j := by
  funext e; apply Fin.ext
  fin_cases e <;> rfl

/-- Reducing the last axis: the source index over result index `(i, j)` with last coordinate `k` is `(i, j, k)`. -/
theorem lift_axis2 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext e; apply Fin.ext
  fin_cases e <;> rfl

/-! ## One-axis reductions of a rank-3 vector at the ideal values -/

/-- The sum over the middle axis, read at `(i, j)`, is `∑ k, src (i, k, j)`. -/
theorem multiReduction_add_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) :=
  (Ideal.multiReduction_add_single src acc h hφ hacc (ix2 i j)).trans
    (Finset.sum_congr rfl fun k _ => congrArg src (lift_axis1 h i j k))

/-- The sum over the last axis, read at `(i, j)`, is `∑ k, src (i, j, k)`. -/
theorem multiReduction_add_axis2_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_axis2 h i j k))

/-- The maximum over the middle axis, read at `(i, j)`, is the fold of `max` from the accumulator's value over
    `src (i, k, j)`. -/
theorem multiReduction_maximumf_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.maximumf.neutral φ hφ) (i : Fin a) (j : Fin c) :
    multiReduction .maximumf [1] ⟨2, ![a, c]⟩ src acc h hφ hacc (ix2 i j)
      = (Finset.univ : Finset (Fin b)).fold max (Ideal.ofBits φ acc) (fun k => src (ix3 i k j)) :=
  (Ideal.multiReduction_maximumf_single src acc h hφ hacc (ix2 i j)).trans
    (congrArg (fun f => (Finset.univ : Finset (Fin b)).fold max (Ideal.ofBits φ acc) f)
      (funext fun k => congrArg src (lift_axis1 h i j k)))

end Cert.Keepdims3

end
-- ==== Proof.LibBatchedMatmul.lean ====
/-
  Batched matrix products of the matrix unit and last-axis maxima, read at coordinates, at the ideal values; any
  extents.

  * `batchDimsT`, `matmul_zero_batchedT`: a `tpu.matmul` of a `[b, m, k]` by a `[b, n, k]` operand — axis 0 of both the
    batch axis, both contracted on their LAST axis (what `q·kᵀ` per batch row lowers to) — into the zero accumulator
    reads, at `(p, q, s)`, `∑ c, l (p, q, c) * r (p, s, c)`.
  * `matmul_zero_batched`: the same for a `[b, m, k]` by `[b, k, n]` product (left contracted on its last axis, right on
    its middle axis: `weights·v` per batch row), over the dimension numbers of module LibBatchedDot:
    `∑ c, l (p, q, c) * r (p, c, s)`.
  * `cast_ab1_ab`: an `[a, b, 1]` array re-laid as `[a, b]`.
  * `multiReduction_maximumf_axis2_apply`, `hostReduce_maximumf_axis2`: the kernel's and the host's maximum of an
    `[a, b, c]` array over its last axis, at `(i, j)`, as the fold of `max` from the accumulator / initial value over
    the entries `(i, j, k)`.
  * `fold_max_coe_of_nonempty`: that fold, from the bottom element over real entries of a nonempty index set, is the
    real supremum.

  Imports modules LibBatchedDot and LibKeepdims3 of the same directory (for the dimension numbers' coordinate facts
  and for `lift_axis2`): copy them along.
-/
import proofs.«100685_j26448408609009_2_alg».proof.Proof.LibBatchedDot
import proofs.«100685_j26448408609009_2_alg».proof.Proof.LibKeepdims3
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.LibBatchedMatmul

open Idealize.ShloMosaic Idealize.ShloMosaic.ValueIdx

/-! ## Batched products into the zero accumulator, read at coordinates -/

/-- The dimension numbers of a batched [b, m, k] by [b, n, k] product: axis 0 of both operands the batch axis, both
    operands contracted on their last axis. -/
abbrev batchDimsT {b m k n : Nat}
    (wf : DotDims.WF (⟨3, ![b, m, k]⟩ : Shape) ⟨3, ![b, n, k]⟩ ⟨3, ![b, m, n]⟩ [2] [2] [1] [1] [0] [0]) :
    DotDims ⟨3, ![b, m, k]⟩ ⟨3, ![b, n, k]⟩ ⟨3, ![b, m, n]⟩ := ⟨[2], [2], [1], [1], [0], [0], wf⟩

section BatchDimsT
variable {b m k n : Nat}
  (wf : DotDims.WF (⟨3, ![b, m, k]⟩ : Shape) ⟨3, ![b, n, k]⟩ ⟨3, ![b, m, n]⟩ [2] [2] [1] [1] [0] [0])

/-- The left operand is read in the result's slab … -/
theorem lhsT_slab (j : (⟨3, ![b, m, n]⟩ : Shape).Idx) (c : (batchDimsT wf).contr.Idx) :
    ((batchDimsT wf).lhsIdx j c 0).val = (j 0).val := by
  unfold DotDims.lhsIdx
  rw [dif_pos (show (0 : Fin (⟨3, ![b, m, k]⟩ : Shape).rank) ∈ (batchDimsT wf).lhsBatch from List.mem_singleton.mpr rfl)]
  rfl

/-- … and row, … -/
theorem lhsT_row (j : (⟨3, ![b, m, n]⟩ : Shape).Idx) (c : (batchDimsT wf).contr.Idx) :
    ((batchDimsT wf).lhsIdx j c 1).val = (j 1).val := by
  unfold DotDims.lhsIdx
  rw [dif_neg (show ¬(1 : Fin (⟨3, ![b, m, k]⟩ : Shape).rank) ∈ (batchDimsT wf).lhsBatch from fun h => Nat.one_ne_zero (congrArg Fin.val (List.mem_singleton.mp h))),
    dif_pos (show (1 : Fin (⟨3, ![b, m, k]⟩ : Shape).rank) ∈ (batchDimsT wf).lhsNonContracting from List.mem_singleton.mpr rfl)]
  rfl

/-- … the right operand in the result's slab … -/
theorem rhsT_slab (j : (⟨3, ![b, m, n]⟩ : Shape).Idx) (c : (batchDimsT wf).contr.Idx) :
    ((batchDimsT wf).rhsIdx j c 0).val = (j 0).val := by
  unfold DotDims.rhsIdx
  rw [dif_pos (show (0 : Fin (⟨3, ![b, n, k]⟩ : Shape).rank) ∈ (batchDimsT wf).rhsBatch from List.mem_singleton.mpr rfl)]
  rfl

/-- … and at the row the result's last coordinate names. -/
theorem rhsT_row (j : (⟨3, ![b, m, n]⟩ : Shape).Idx) (c : (batchDimsT wf).contr.Idx) :
    ((batchDimsT wf).rhsIdx j c 1).val = (j 2).val := by
  unfold DotDims.rhsIdx
  rw [dif_neg (show ¬(1 : Fin (⟨3, ![b, n, k]⟩ : Shape).rank) ∈ (batchDimsT wf).rhsBatch from fun h => Nat.one_ne_zero (congrArg Fin.val (List.mem_singleton.mp h))),
    dif_pos (show (1 : Fin (⟨3, ![b, n, k]⟩ : Shape).rank) ∈ (batchDimsT wf).rhsNonContracting from List.mem_singleton.mpr rfl)]
  rfl

/-- Such a product into the zero accumulator reads, at (p, q, s), the sum over the shared last axis of row q of slab p
    of the left operand times row s of slab p of the right. -/
theorem matmul_zero_batchedT {φ₁ φ₂ : FTy} (l : FVec Ideal ⟨3, ![b, m, k]⟩ φ₁) (r : FVec Ideal ⟨3, ![b, n, k]⟩ φ₂)
    (p : Fin b) (q : Fin m) (s : Fin n) :
    FloatOps.matmul (batchDimsT wf) none l r (constant (F := Ideal) ⟨3, ![b, m, n]⟩ .f32 0x00000000#32) (ix3 p q s)
      = ∑ c : Fin k, l (ix3 p q c) * r (ix3 p s c) := by
  rw [Ideal.matmul_constant_zero_apply, ← Equiv.sum_comp (contrEquiv1 (batchDimsT wf) k rfl rfl).symm]
  refine Finset.sum_congr rfl fun c _ => ?_
  have hc := contrEquiv1_symm_val (batchDimsT wf) k rfl rfl c
  have el : (batchDimsT wf).lhsIdx (ix3 p q s) ((contrEquiv1 (batchDimsT wf) k rfl rfl).symm c) = ix3 p q c :=
    funext fun a => Fin.ext (by
      match a with
      | ⟨0, _⟩ => exact lhsT_slab wf _ _
      | ⟨1, _⟩ => exact lhsT_row wf _ _
      | ⟨2, _⟩ => exact ((batchDimsT wf).lhsIdx_val_of_single rfl _ _).trans hc)
  have er : (batchDimsT wf).rhsIdx (ix3 p q s) ((contrEquiv1 (batchDimsT wf) k rfl rfl).symm c) = ix3 p s c :=
    funext fun a => Fin.ext (by
      match a with
      | ⟨0, _⟩ => exact rhsT_slab wf _ _
      | ⟨1, _⟩ => exact rhsT_row wf _ _
      | ⟨2, _⟩ => exact ((batchDimsT wf).rhsIdx_val_of_single rfl _ _).trans hc)
  rw [el, er]

end BatchDimsT

section BatchDims
open Cert.LibBatchedDot
variable {b m k n : Nat}
  (wf : DotDims.WF (⟨3, ![b, m, k]⟩ : Shape) ⟨3, ![b, k, n]⟩ ⟨3, ![b, m, n]⟩ [2] [1] [1] [2] [0] [0])

/-- A batched [b, m, k] by [b, k, n] product into the zero accumulator reads, at (p, q, s), the sum over the shared
    axis of row q of slab p of the left operand times column s of slab p of the right. -/
theorem matmul_zero_batched {φ₁ φ₂ : FTy} (l : FVec Ideal ⟨3, ![b, m, k]⟩ φ₁) (r : FVec Ideal ⟨3, ![b, k, n]⟩ φ₂)
    (p : Fin b) (q : Fin m) (s : Fin n) :
    FloatOps.matmul (batchDims wf) none l r (constant (F := Ideal) ⟨3, ![b, m, n]⟩ .f32 0x00000000#32) (ix3 p q s)
      = ∑ c : Fin k, l (ix3 p q c) * r (ix3 p c s) := by
  rw [Ideal.matmul_constant_zero_apply, ← Equiv.sum_comp (contrEquiv1 (batchDims wf) k rfl rfl).symm]
  refine Finset.sum_congr rfl fun c _ => ?_
  have hc := contrEquiv1_symm_val (batchDims wf) k rfl rfl c
  have el : (batchDims wf).lhsIdx (ix3 p q s) ((contrEquiv1 (batchDims wf) k rfl rfl).symm c) = ix3 p q c :=
    funext fun a => Fin.ext (by
      match a with
      | ⟨0, _⟩ => exact lhs_slab wf _ _
      | ⟨1, _⟩ => exact lhs_row wf _ _
      | ⟨2, _⟩ => exact ((batchDims wf).lhsIdx_val_of_single rfl _ _).trans hc)
  have er : (batchDims wf).rhsIdx (ix3 p q s) ((contrEquiv1 (batchDims wf) k rfl rfl).symm c) = ix3 p c s :=
    funext fun a => Fin.ext (by
      match a with
      | ⟨0, _⟩ => exact rhs_slab wf _ _
      | ⟨1, _⟩ => exact ((batchDims wf).rhsIdx_val_of_single rfl _ _).trans hc
      | ⟨2, _⟩ => exact rhs_col wf _ _)
  rw [el, er]

end BatchDims

/-- An [a, b, 1] array re-laid as [a, b] reads, at (i, j), the array at (i, j, 0). -/
theorem cast_ab1_ab {α : Type} {a b : ℕ} (v : (⟨3, ![a, b, 1]⟩ : Shape).Idx → α)
    (h : (⟨3, ![a, b, 1]⟩ : Shape).ShapeCasts ⟨2, ![a, b]⟩) (i : Fin a) (j : Fin b) :
    shapeCast ⟨2, ![a, b]⟩ v h (ix2 i j) = v (ix3 i j (0 : Fin 1)) :=
  shapeCast_apply v h _ _ (by
    rw [Shape.rowMajor_val_two, Shape.rowMajor_val_three]
    show (i.val * b + j.val) * 1 + 0 = i.val * b + j.val
    rw [Nat.mul_one, Nat.add_zero])

/-! ## Maxima over the last axis -/

/-- The maximum of an [a, b, c] array over its last axis, read at (i, j), is the fold of max from the accumulator's
    value over the entries (i, j, k). -/
theorem multiReduction_maximumf_axis2_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.maximumf.neutral φ hφ) (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (Cert.Keepdims3.lift_axis2 h i j k)))

/-- The host's reduction with body `max` of an `[a, b, c]` array over its last axis is, at `(i, j)`, the fold of
    `max` from the initial value over the `c` entries `x (i, j, k)`. -/
theorem hostReduce_maximumf_axis2 {a b c : ℕ} {φ : FTy} {u : Shape} (x : FVec Ideal ⟨3, ![a, b, c]⟩ φ)
    (init : u.Idx → Ideal φ) (h' : Shape.ReducesTo ⟨3, ![a, b, c]⟩ [2] ⟨2, ![a, b]⟩)
    (h : Shape.Reduces ⟨3, ![a, b, c]⟩ [2] ⟨2, ![a, b]⟩) (hu : 0 < u.numel) (i : Fin a) (j : Fin b) :
    Host.reduce FloatOps.maximumf x init h' hu (ix2 i j)
      = (Finset.univ : Finset (Fin c)).fold max (init (Shape.Idx.first hu)) (fun k => x (ix3 i j k)) :=
  (Host.reduce_eq_fold_single FloatOps.maximumf x init h' h hu (ix2 i j)).trans
    (congrArg (fun f => (Finset.univ : Finset (Fin c)).fold max (init (Shape.Idx.first hu)) f)
      (funext fun k => congrArg x (Cert.Keepdims3.lift_axis2 h i j k)))

/-- Over a nonempty finite set, the fold of `max` from the bottom element over real values is their real supremum. -/
theorem fold_max_coe_of_nonempty {ι : Type} (s : Finset ι) (hs : s.Nonempty) (f : ι → ℝ) :
    s.fold max (⊥ : EReal) (fun k => ((f k : ℝ) : EReal)) = ((s.sup' hs f : ℝ) : EReal) := by
  induction hs using Finset.Nonempty.cons_induction with
  | singleton a =>
    rw [Finset.fold_singleton, Finset.sup'_singleton]
    exact max_eq_left bot_le
  | cons a s ha hs ih =>
    rw [Finset.fold_cons, Finset.sup'_cons hs, ih]
    exact (EReal.coe_strictMono.monotone.map_max).symm

end Cert.LibBatchedMatmul

end
-- ==== Proof.RefValue.lean ====
/-
  The reference program computes the layer of module Spec.

  Read one operation at a time, at explicit coordinates: the first linear map with its bias is `proj`, its positive
  part is `key`, the batched product of the two divided by √1024 is `logit` (dividing by √1024 = 32 is multiplying by
  2⁻⁵), the running maximum joined with −∞ is `rowMax`, the shifted exponentials, their sum and their quotient are
  `expo`, `denom` and `weight`, the second batched product is `feature`, and the second linear map with its bias
  and positive part is `out`.
-/
import proofs.«100685_j26448408609009_2_alg».proof.Proof.Gen.ReferenceIdeal.Read
import proofs.«100685_j26448408609009_2_alg».proof.Proof.Spec
import proofs.«100685_j26448408609009_2_alg».proof.Proof.LibBatchedMatmul

noncomputable section

namespace Cert.Attn.Ref

open Idealize.ShloMosaic Idealize.ShloMosaic.ValueIdx Cert.ReferenceIdeal Cert.ReferenceIdeal.Gen Cert.ReferenceIdeal.Read Cert.Attn
open scoped BigOperators

/-! ## The scale: dividing by √1024 is multiplying by 2⁻⁵ -/

/-- The pattern 0x44800000 denotes 1024. -/
theorem ofBits_1024 : Ideal.ofBits .f32 0x44800000#32 = ((1024 : ℝ) : EReal) := by
  simp [Ideal.ofBits, Ideal.ieee]
  rw [← EReal.coe_mul]
  norm_num

/-- The pattern 0x3D000000 denotes 1/32. -/
theorem ofBits_inv32 : Ideal.ofBits .f32 0x3D000000#32 = ((1 / 32 : ℝ) : EReal) := by
  simp [Ideal.ofBits, Ideal.ieee]
  rw [← EReal.coe_mul]
  norm_num

/-- √1024 = 32. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num), show (1024 : ℝ) = 32 ^ 2 by norm_num, Real.sqrt_sq (by norm_num)]

/-- Dividing by √1024 is multiplying by 2⁻⁵. -/
theorem scale_law (y : EReal) :
    Ideal.div y (Ideal.sqrt (Ideal.ofBits .f32 0x44800000#32)) = y * Ideal.ofBits .f32 0x3D000000#32 := by
  rw [ofBits_1024, sqrt_1024, ofBits_inv32]
  exact Ideal.div_coe (by norm_num) y

/-! ## The stages at coordinates -/

section Stages
variable (x0 : (⟨S64x1024x512, .f32⟩ : BufTy).Contents (Elt Ideal)) (x1 : (⟨S512x1024, .f32⟩ : BufTy).Contents (Elt Ideal))
  (x2 : (⟨S1024, .f32⟩ : BufTy).Contents (Elt Ideal)) (x3 : (⟨S1024x512, .f32⟩ : BufTy).Contents (Elt Ideal))
  (x4 : (⟨S512, .f32⟩ : BufTy).Contents (Elt Ideal))

/-- The first linear map with its bias. -/
theorem v4_at (b : Fin 64) (n e : Fin 1024) :
    val_main_v4 (F := Ideal) x0 x1 x2 (ix3 b n e) = proj x0 x1 x2 b n e := by
  refine (val_main_v4_apply x0 x1 x2 _).trans ?_
  show val_main_v1 (F := Ideal) x0 x1 (ix3 b n e) + val_main_v3 (F := Ideal) x2 (ix3 b n e) = _
  rw [val_main_v1_apply, val_main_v3_apply, val_main_v2_apply]
  refine congrArg₂ (· + ·) (Finset.sum_congr rfl fun k _ => congrArg₂ (· * ·) (congrArg x0 ?_) (congrArg x1 ?_)) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- Its positive part. -/
theorem v5_at (b : Fin 64) (n e : Fin 1024) :
    val_main_v5 (F := Ideal) x0 x1 x2 (ix3 b n e) = key x0 x1 x2 b n e := by
  refine (val_main_v5_apply x0 x1 x2 _).trans ?_
  show max (val_main_v4 (F := Ideal) x0 x1 x2 (ix3 b n e)) (val_main_call0_v0 (F := Ideal) (ix3 b n e)) = _
  rw [v4_at, val_main_call0_v0_apply, val_main_call0_cst_apply]
  show max _ (Ideal.ofBits .f32 0x00000000#32) = _
  rw [Ideal.ofBits_zero_f32]
  rfl

/-- The scaled inner products of row n with the key rows. -/
theorem v8_at (b : Fin 64) (n m : Fin 1024) :
    val_main_v8 (F := Ideal) x0 x1 x2 (ix3 b n m) = logit (proj x0 x1 x2 b n) (key x0 x1 x2 b) m := by
  refine (val_main_v8_apply x0 x1 x2 _).trans ?_
  show Ideal.div (val_main_v6 (F := Ideal) x0 x1 x2 (ix3 b n m)) (val_main_v7 (F := Ideal) (ix3 b n m)) = _
  rw [val_main_v7_apply, val_main_v0_apply, val_main_cst_apply]
  show Ideal.div _ (Ideal.sqrt (Ideal.ofBits .f32 0x44800000#32)) = _
  rw [scale_law, val_main_v6_apply]
  unfold logit
  refine congrArg (· * cscale) (Finset.sum_congr rfl fun k _ => ?_)
  have el : lidx_main_v6 (ix3 b n m) k = ix3 b n k :=
    funext fun a => Fin.ext (by match a with | ⟨0, _⟩ => rfl | ⟨1, _⟩ => rfl | ⟨2, _⟩ => rfl)
  have er : ridx_main_v6 (ix3 b n m) k = ix3 b m k :=
    funext fun a => Fin.ext (by match a with | ⟨0, _⟩ => rfl | ⟨1, _⟩ => rfl | ⟨2, _⟩ => rfl)
  rw [el, er, v4_at, v5_at]

/-- The largest logit of a row, from −∞. -/
theorem v9_at (b : Fin 64) (n : Fin 1024) :
    val_main_v9 (F := Ideal) x0 x1 x2 (ix2 b n)
      = (Finset.univ : Finset (Fin 1024)).fold max ninf (fun m => logit (proj x0 x1 x2 b n) (key x0 x1 x2 b) m) := by
  unfold val_main_v9
  refine (Cert.LibBatchedMatmul.hostReduce_maximumf_axis2 (φ := .f32) (val_main_v8 (F := Ideal) x0 x1 x2)
    (val_main_cst_0 (F := Ideal)) reducesTo_S64x1024x1024_S64x1024_d2 (by decide) h_S_ b n).trans ?_
  show (Finset.univ : Finset (Fin 1024)).fold max ninf (fun k => val_main_v8 (F := Ideal) x0 x1 x2 (ix3 b n k)) = _
  exact congrArg (fun f => (Finset.univ : Finset (Fin 1024)).fold max ninf f) (funext fun m => v8_at x0 x1 x2 b n m)

/-- The same joined with −∞ once more. -/
theorem v11_at (b : Fin 64) (n : Fin 1024) :
    val_main_v11 (F := Ideal) x0 x1 x2 (ix2 b n) = rowMax (proj x0 x1 x2 b n) (key x0 x1 x2 b) := by
  refine (val_main_v11_apply x0 x1 x2 _).trans ?_
  show max (val_main_v10 (F := Ideal) (ix2 b n)) (val_main_v9 (F := Ideal) x0 x1 x2 (ix2 b n)) = _
  rw [v9_at, val_main_v10_apply, val_main_cst_1_apply]
  rfl

/-- The row's maximum repeated along the row. -/
theorem v13_at (b : Fin 64) (n m : Fin 1024) :
    val_main_v13 (F := Ideal) x0 x1 x2 (ix3 b n m) = rowMax (proj x0 x1 x2 b n) (key x0 x1 x2 b) := by
  rw [val_main_v13_apply, val_main_v12_apply]
  refine Eq.trans (congrArg (val_main_v11 (F := Ideal) x0 x1 x2) ?_) (v11_at x0 x1 x2 b n)
  exact funext fun a => Fin.ext (by match a with | ⟨0, _⟩ => rfl | ⟨1, _⟩ => rfl)

/-- The exponentials of the shifted logits. -/
theorem v15_at (b : Fin 64) (n m : Fin 1024) :
    val_main_v15 (F := Ideal) x0 x1 x2 (ix3 b n m) = expo (proj x0 x1 x2 b n) (key x0 x1 x2 b) m := by
  refine (val_main_v15_apply x0 x1 x2 _).trans ?_
  show Ideal.exp (val_main_v14 (F := Ideal) x0 x1 x2 (ix3 b n m)) = _
  unfold expo
  refine congrArg Ideal.exp ?_
  refine (val_main_v14_apply x0 x1 x2 _).trans ?_
  show val_main_v8 (F := Ideal) x0 x1 x2 (ix3 b n m) - val_main_v13 (F := Ideal) x0 x1 x2 (ix3 b n m) = _
  rw [v8_at, v13_at]

/-- Their sum along the row. -/
theorem v16_at (b : Fin 64) (n : Fin 1024) :
    val_main_v16 (F := Ideal) x0 x1 x2 (ix2 b n) = denom (proj x0 x1 x2 b n) (key x0 x1 x2 b) := by
  rw [val_main_v16_apply, val_main_cst_2_apply]
  show Ideal.ofBits .f32 0x00000000#32 + _ = _
  rw [Ideal.ofBits_zero_f32, zero_add]
  unfold denom
  refine Finset.sum_congr rfl fun k _ => ?_
  refine Eq.trans (congrArg (val_main_v15 (F := Ideal) x0 x1 x2) ?_) (v15_at x0 x1 x2 b n k)
  exact funext fun a => Fin.ext (by match a with | ⟨0, _⟩ => rfl | ⟨1, _⟩ => rfl | ⟨2, _⟩ => rfl)

/-- The sum repeated along the row. -/
theorem v18_at (b : Fin 64) (n m : Fin 1024) :
    val_main_v18 (F := Ideal) x0 x1 x2 (ix3 b n m) = denom (proj x0 x1 x2 b n) (key x0 x1 x2 b) := by
  rw [val_main_v18_apply, val_main_v17_apply]
  refine Eq.trans (congrArg (val_main_v16 (F := Ideal) x0 x1 x2) ?_) (v16_at x0 x1 x2 b n)
  exact funext fun a => Fin.ext (by match a with | ⟨0, _⟩ => rfl | ⟨1, _⟩ => rfl)

/-- The softmax weights. -/
theorem v19_at (b : Fin 64) (n m : Fin 1024) :
    val_main_v19 (F := Ideal) x0 x1 x2 (ix3 b n m) = weight (proj x0 x1 x2 b n) (key x0 x1 x2 b) m := by
  refine (val_main_v19_apply x0 x1 x2 _).trans ?_
  show Ideal.div (val_main_v15 (F := Ideal) x0 x1 x2 (ix3 b n m)) (val_main_v18 (F := Ideal) x0 x1 x2 (ix3 b n m)) = _
  rw [v15_at, v18_at]
  rfl

/-- The weighted combination of the value rows. -/
theorem v20_at (b : Fin 64) (n e : Fin 1024) :
    val_main_v20 (F := Ideal) x0 x1 x2 (ix3 b n e)
      = feature (proj x0 x1 x2 b n) (key x0 x1 x2 b) (proj x0 x1 x2 b) e := by
  rw [val_main_v20_apply]
  unfold feature
  refine Finset.sum_congr rfl fun k _ => ?_
  have el : lidx_main_v20 (ix3 b n e) k = ix3 b n k :=
    funext fun a => Fin.ext (by match a with | ⟨0, _⟩ => rfl | ⟨1, _⟩ => rfl | ⟨2, _⟩ => rfl)
  have er : ridx_main_v20 (ix3 b n e) k = ix3 b k e :=
    funext fun a => Fin.ext (by match a with | ⟨0, _⟩ => rfl | ⟨1, _⟩ => rfl | ⟨2, _⟩ => rfl)
  rw [el, er, v19_at, v4_at]

/-- The second linear map, its bias and the positive part. -/
theorem v25_at (b : Fin 64) (n : Fin 1024) (d : Fin 512) :
    val_main_v25 (F := Ideal) x0 x1 x2 x3 x4 (ix3 b n d) = out x0 x1 x2 x3 x4 b n d := by
  refine (val_main_v25_apply x0 x1 x2 x3 x4 _).trans ?_
  show max (val_main_v24 (F := Ideal) x0 x1 x2 x3 x4 (ix3 b n d)) (val_main_call1_v0 (F := Ideal) (ix3 b n d)) = _
  rw [val_main_call1_v0_apply, val_main_call1_cst_apply]
  show max _ (Ideal.ofBits .f32 0x00000000#32) = _
  rw [Ideal.ofBits_zero_f32]
  unfold out rowOut
  refine congrArg (max · 0) ?_
  refine (val_main_v24_apply x0 x1 x2 x3 x4 _).trans ?_
  show val_main_v21 (F := Ideal) x0 x1 x2 x3 (ix3 b n d) + val_main_v23 (F := Ideal) x4 (ix3 b n d) = _
  rw [val_main_v21_apply, val_main_v23_apply, val_main_v22_apply]
  refine congrArg₂ (· + ·) (Finset.sum_congr rfl fun k _ => ?_) (congrArg x4 ?_)
  · have el : lidx_main_v21 (ix3 b n d) k = ix3 b n k :=
      funext fun a => Fin.ext (by match a with | ⟨0, _⟩ => rfl | ⟨1, _⟩ => rfl | ⟨2, _⟩ => rfl)
    have er : ridx_main_v21 (ix3 b n d) k = ix2 k d :=
      funext fun a => Fin.ext (by match a with | ⟨0, _⟩ => rfl | ⟨1, _⟩ => rfl)
    rw [el, er, v20_at]
  · exact funext fun a => Fin.ext (by match a with | ⟨0, _⟩ => rfl)

end Stages

/-- The reference program's result is the layer of module Spec. -/
theorem ref_eq (x0 : (⟨S64x1024x512, .f32⟩ : BufTy).Contents (Elt Ideal)) (x1 : (⟨S512x1024, .f32⟩ : BufTy).Contents (Elt Ideal))
    (x2 : (⟨S1024, .f32⟩ : BufTy).Contents (Elt Ideal)) (x3 : (⟨S1024x512, .f32⟩ : BufTy).Contents (Elt Ideal))
    (x4 : (⟨S512, .f32⟩ : BufTy).Contents (Elt Ideal)) :
    Cert.ReferenceIdeal.Read.val_main_v25 (F := Ideal) x0 x1 x2 x3 x4 = Cert.Attn.G x0 x1 x2 x3 x4 := by
  funext i
  obtain ⟨b, n, d, rfl⟩ : ∃ (b : Fin 64) (n : Fin 1024) (d : Fin 512), i = ix3 b n d := ⟨i 0, i 1, i 2, eq_ix3 i⟩
  exact (v25_at x0 x1 x2 x3 x4 b n d).trans (G_apply x0 x1 x2 x3 x4 b n d).symm

end Cert.Attn.Ref

end
-- ==== Proof.lean ====
/-
  A fused attention layer against its plain reference, equal over the extended reals.

  Both programs compute, for a batch entry b and a row n,
      proj = x·W1 + bias1,   key = max(proj, 0),   logit = (proj·keyᵀ)·c,
      weight = exp(logit − max_m logit) / ∑_m exp(logit − max_m logit),
      out = max((weight·proj)·W2 + bias2, 0).
  The kernel multiplies the logits by the binary fraction 2⁻⁵; the reference divides them by √1024 = 32, which on
  every extended real is the same product (`Cert.Attn.Ref.scale_law`): the one algebraic law the claim rests on. Every other
  difference is an arrangement: the kernel keeps proj and key of one batch entry in two scratch matrices and computes the
  attention rows of 512 query rows at a time in a loop of two trips, one batch entry per grid point, where the reference
  applies each operation to the whole [64, 1024, ·] arrays; a change of float format is the identity at the exact instance;
  the sums are finite sums of extended reals, so their order does not matter. No step needs the inputs to be finite.

  The kernel's result array is read off its frame run (`Cert.Attn.Kernel.run`: each trip's store is the block function on
  its rows, the two stores cover the block, the 64 blocks tile the array); the reference's from its run read one operation
  at a time (`Cert.Attn.Ref.ref_eq`). Both are the one function `Cert.Attn.G` of the argument arrays.
  The idealization rewrote nothing, so `preserves` is trivial; the two kernel frames are the frame runs, and the
  reference's frame is its run with the result dropped.
-/
import proofs.«100685_j26448408609009_2_alg».proof.Defs
import proofs.«100685_j26448408609009_2_alg».proof.Proof.Gen.Kernel
import proofs.«100685_j26448408609009_2_alg».proof.Proof.Gen.Kernel.Frame
import proofs.«100685_j26448408609009_2_alg».proof.Proof.Gen.KernelIdeal
import proofs.«100685_j26448408609009_2_alg».proof.Proof.Gen.KernelIdeal.Frame
import proofs.«100685_j26448408609009_2_alg».proof.Proof.Gen.ReferenceIdeal
import proofs.«100685_j26448408609009_2_alg».proof.Proof.Gen.Pre_finite_inputs
import proofs.«100685_j26448408609009_2_alg».proof.Proof.Gen.ReferenceIdeal.Run
import proofs.«100685_j26448408609009_2_alg».proof.Proof.Gen.ReferenceIdeal.Read
import proofs.«100685_j26448408609009_2_alg».proof.Proof.KernelValue
import proofs.«100685_j26448408609009_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both runs end with the result array at the layer's output `G` of them. -/
theorem algebraic : Cert.algebraic_KernelIdeal_ReferenceIdeal := by
  intro m ρ m' ρ' _ hagree
  refine ⟨fun c => Cert.Attn.Kernel.Gm m c, Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Attn.Ref.ref_eq, (hagree c).1, (hagree c).2.1, (hagree c).2.2.1,
    (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
